-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64x64 : Shape := ⟨2, ![64, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S8192x64 .f32) (main_arg1 : FVec F S64x64 .f32) (main_arg2 : FVec F S64x64 .f32) (main_arg3 : FVec F S64x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S8192x64 : Shape := ⟨2, ![8192, 64]⟩
abbrev S64x64 : Shape := ⟨2, ![64, 64]⟩
abbrev S1024x64 : Shape := ⟨2, ![1024, 64]⟩
abbrev S1024x1 : Shape := ⟨2, ![1024, 1]⟩
abbrev S512x64 : Shape := ⟨2, ![512, 64]⟩
abbrev S1024x512 : Shape := ⟨2, ![1024, 512]⟩
abbrev S1024 : Shape := ⟨1, ![1024]⟩

abbrev nBuf : Space → Nat
  | .hbm => 14
  | .vmem => 9
  | .smem => 0
  | _ => 0

abbrev bufTy : (tb : Table) → Fin (tcTables nBuf tb) → BufTy
  | .hbm, ⟨0, _⟩ => ⟨S8192x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S8192x64, .f32⟩
  | .hbm, ⟨6, _⟩ => ⟨S64x64, .f32⟩
  | .hbm, ⟨7, _⟩ => ⟨S8192x64, .f32⟩
  | .hbm, ⟨8, _⟩ => ⟨S64x64, .f32⟩
  | .hbm, ⟨9, _⟩ => ⟨S8192x64, .f32⟩
  | .hbm, ⟨10, _⟩ => ⟨S8192x64, .bf16⟩
  | .hbm, ⟨11, _⟩ => ⟨S8192x64, .bf16⟩
  | .hbm, ⟨12, _⟩ => ⟨S8192x64, .bf16⟩
  | .hbm, ⟨13, _⟩ => ⟨S8192x64, .f32⟩
  | .local _ .vmem, ⟨0, _⟩ => ⟨S1024x64, .bf16⟩
  | .local _ .vmem, ⟨1, _⟩ => ⟨S1024x64, .bf16⟩
  | .local _ .vmem, ⟨2, _⟩ => ⟨S8192x64, .bf16⟩
  | .local _ .vmem, ⟨3, _⟩ => ⟨S8192x64, .bf16⟩
  | .local _ .vmem, ⟨4, _⟩ => ⟨S1024x64, .f32⟩
  | .local _ .vmem, ⟨5, _⟩ => ⟨S1024x64, .f32⟩
  | .local _ .vmem, ⟨6, _⟩ => ⟨S1024x1, .f32⟩
  | .local _ .vmem, ⟨7, _⟩ => ⟨S1024x1, .f32⟩
  | .local _ .vmem, ⟨8, _⟩ => ⟨S1024x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v18 : BitVec 32 := Scalar.addi c0_i32 c16_i32
  let c1_i32 : BitVec 32 := 1#32
  ⟨c0_i32, v18, c1_i32⟩
def k0_mult1 (k0_t1 : Fin k0_t1_loop.trips) : BitVec 32 :=
  let c0_i32_18 : BitVec 32 := 0#32
  let c0_i32 : BitVec 32 := 0#32
  let c1_i32 : BitVec 32 := 1#32
  let arg8 : BitVec 32 := Scf.iv c0_i32 c1_i32 k0_t1
  let c1_i32_17 : BitVec 32 := 1#32
  let v24 : BitVec 32 := Scalar.muli arg8 c1_i32_17
  let v25 : BitVec 32 := Scalar.addi c0_i32_18 v24
  let c512_i32 : BitVec 32 := 512#32
  let v26 : BitVec 32 := Scalar.muli v25 c512_i32
  v26
def k0_off1 (k0_t1 : Fin k0_t1_loop.trips) : Fin 2 → Nat :=
  let c0_i32_18 : BitVec 32 := 0#32
  let c0_i32 : BitVec 32 := 0#32
  let c1_i32 : BitVec 32 := 1#32
  let arg8 : BitVec 32 := Scf.iv c0_i32 c1_i32 k0_t1
  let c1_i32_17 : BitVec 32 := 1#32
  let v24 : BitVec 32 := Scalar.muli arg8 c1_i32_17
  let v25 : BitVec 32 := Scalar.addi c0_i32_18 v24
  let c512_i32 : BitVec 32 := 512#32
  let v26 : BitVec 32 := Scalar.muli v25 c512_i32
  let v27 : BitVec 32 := v26
  let v28 : Index := Scalar.indexCast v27
  let c0_19 : Index := 0#32
  ![v28.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x64_S64x64_1_0 : S64x64.Transposes [1, 0] S64x64
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S512x64 : 0 < S512x64.numel
  shapeCasts_S512x64_S512x64 : S512x64.ShapeCasts S512x64
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  dot_S8192x64_S64x64_S8192x64_1_0_0_1_n_n_wf : DotDims.WF S8192x64 S64x64 S8192x64 [1] [0] [0] [1] [] []
  dot_S1024x64_S512x64_S1024x512_1_1_0_0_n_n_wf : DotDims.WF S1024x64 S512x64 S1024x512 [1] [1] [0] [0] [] []
  dot_S1024x512_S512x64_S1024x64_1_0_0_1_n_n_wf : DotDims.WF S1024x512 S512x64 S1024x64 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .bf16 = 32 ∨ (Rect.block (s := S8192x64) S1024x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .bf16 = 32 ∨ (Rect.block (s := S8192x64) S8192x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .bf16 = 32 ∨ (Rect.block (s := S8192x64) S8192x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_v6) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S8192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x64 : Shape := ⟨2, ![8192, 64]⟩
abbrev S64x64 : Shape := ⟨2, ![64, 64]⟩
abbrev S_ : Shape := ⟨0, ![]⟩
abbrev S64x8192 : Shape := ⟨2, ![64, 8192]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S8192x64, .f32⟩
  | .hbm, ⟨6, _⟩ => ⟨S64x64, .f32⟩
  | .hbm, ⟨7, _⟩ => ⟨S8192x64, .f32⟩
  | .hbm, ⟨8, _⟩ => ⟨S64x64, .f32⟩
  | .hbm, ⟨9, _⟩ => ⟨S8192x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  transposes_S64x64_S64x64_1_0 : S64x64.Transposes [1, 0] S64x64
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Spec.lean ====
/-
  Single-head attention over real matrices, and its reading as arrays of extended reals.

  For a matrix of inputs `X` (rows = tokens) and three weight matrices, the projections are `X Wᵀ`; the
  score of query row `r` against key row `j` is the dot product of the two projected rows divided by 8
  (the square root of the head width 64); the result row `r` is the average of the value rows weighted by
  `exp` of the scores: `(∑ⱼ exp (s r j) • v j) / ∑ⱼ exp (s r j)`.
-/
import Idealize.ShloMosaic.PureOps.Ideal
import Idealize.ShloMosaic.Lib.ValueIdx
import Mathlib.Analysis.SpecialFunctions.Exp

noncomputable section

open scoped BigOperators

namespace Attention

open Idealize.ShloMosaic

/-- A real matrix read as a rank-2 array of extended reals. -/
def lift {a b : ℕ} (A : Fin a → Fin b → ℝ) : (⟨2, ![a, b]⟩ : Shape).Idx → EReal :=
  fun i => ((A (i 0) (i 1) : ℝ) : EReal)

theorem lift_ix2 {a b : ℕ} (A : Fin a → Fin b → ℝ) (p : Fin a) (q : Fin b) :
    lift A (ValueIdx.ix2 p q) = ((A p q : ℝ) : EReal) := rfl

theorem lift_apply {a b : ℕ} (A : Fin a → Fin b → ℝ) (i : (⟨2, ![a, b]⟩ : Shape).Idx) :
    lift A i = ((A (i 0) (i 1) : ℝ) : EReal) := rfl

/-- `X Wᵀ`: row `r` of the inputs against row `d` of the weights. -/
def proj {n : ℕ} (X : Fin n → Fin 64 → ℝ) (W : Fin 64 → Fin 64 → ℝ) (r : Fin n) (d : Fin 64) : ℝ :=
  ∑ e : Fin 64, X r e * W d e

/-- The scaled score of query row `r` against key row `j`. -/
def score {n k : ℕ} (Q : Fin n → Fin 64 → ℝ) (K : Fin k → Fin 64 → ℝ) (r : Fin n) (j : Fin k) : ℝ :=
  (∑ d : Fin 64, Q r d * K j d) * (1 / 8)

/-- Row `r`, column `c` of the attention result: the `exp`-weighted average of the value rows. -/
def attn {n k : ℕ} (Q : Fin n → Fin 64 → ℝ) (K V : Fin k → Fin 64 → ℝ) (r : Fin n) (c : Fin 64) : ℝ :=
  (∑ j : Fin k, Real.exp (score Q K r j) * V j c) / ∑ j : Fin k, Real.exp (score Q K r j)

/-- The whole result as an array of extended reals, from the four argument matrices. -/
def out (X : Fin 8192 → Fin 64 → ℝ) (A B C : Fin 64 → Fin 64 → ℝ) : (⟨2, ![8192, 64]⟩ : Shape).Idx → EReal :=
  lift (attn (proj X A) (proj X B) (proj X C))

end Attention

end
-- ==== Proof.BodyFold.lean ====
/-
  The kernel's body, at one grid point, as a pure recursion.

  The body keeps three running quantities per query row in scratch memory: a running maximum of the scores seen
  so far, a running sum of exponentials (the softmax denominator, relative to that maximum), and a running
  weighted sum of value rows (the numerator). It zeroes them (the maximum to −∞), visits the key/value rows in
  sixteen chunks of 512, updating all three at each chunk, and finally writes numerator / denominator.

  Here the contents of the three scratch buffers after `k` chunks are shown to be the `k`-th iterate of one pure
  step function (`stStep`, made of the body's own arithmetic) from the initial fill (`st`), for any float
  instance; and the block the body writes back is the final numerator divided by the final denominator.
-/
import proofs.«164678_j74801150427275_2_alg».proof.Proof.Gen.KernelIdeal.Frame
import Idealize.ShloMosaic.Lib.Pipeline.Value

set_option maxRecDepth 16384

noncomputable section

namespace Attention.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two zero offsets, as the constant-zero function. -/
theorem zero2 : (![0, 0] : Fin 2 → Nat) = fun _ => 0 := by
  funext a; match a with | ⟨0, _⟩ => rfl | ⟨1, _⟩ => rfl

/-- A buffer whose LAST store overwrote all of it reads as that store's payload, whatever was stored before. -/
theorem read_writes_whole {sig : RefSig} {κ : Kind} {sp : Space} {S : Shape} {e : EltTy} (v : View sig κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self .., View.mem_set_unit_zero h inb y⟩),
    View.canon_cons_unit_zero h inb]

/-- The three running quantities: maximum, denominator, numerator. -/
abbrev St (F : FTy → Type) [FloatOps F] : Type :=
  FVec F S1024x1 .f32 × FVec F S1024x1 .f32 × FVec F S1024x64 .f32

/-- Rows `512 k … 512 k + 511` of a key or value array. -/
def chunk (X : Vec F S8192x64 .bf16) (k : Fin k0_t1_loop.trips) : Vec F S512x64 .bf16 :=
  View.ld X (Rect.unit (s := S8192x64) (k0_off1 k) S512x64.size (k0_off1_inb k))

/-- One chunk's update of the three running quantities, in the body's own arithmetic: the new maximum, then the
    denominator and the numerator rescaled to it and increased by the chunk's terms. -/
def stStep (q : FVec F S1024x64 .bf16) (kc vc : Vec F S512x64 .bf16) (s : St F) : St F :=
  (k0_pay5 (k0_pay8 q kc s.1), k0_pay11 q kc s.1 s.2.1, k0_pay12 q kc vc s.1 s.2.2)

/-- The running quantities after `k` chunks, from the initial fill (−∞, 0, 0). -/
def st (x0 : Vec F S1024x64 .bf16) (x1 x2 : Vec F S8192x64 .bf16) : ℕ → St F
  | 0 => (k0_pay2, k0_pay3, k0_pay4)
  | k + 1 =>
    if h : k < k0_t1_loop.trips then stStep (k0_pay1 x0) (chunk x1 ⟨k, h⟩) (chunk x2 ⟨k, h⟩) (st x0 x1 x2 k)
    else st x0 x1 x2 k

theorem st_succ (x0 : Vec F S1024x64 .bf16) (x1 x2 : Vec F S8192x64 .bf16) (k : ℕ) (h : k < k0_t1_loop.trips) :
    st x0 x1 x2 (k + 1) = stStep (k0_pay1 x0) (chunk x1 ⟨k, h⟩) (chunk x2 ⟨k, h⟩) (st x0 x1 x2 k) := by
  rw [st, dif_pos h]

/-- After `k` trips of the loop the three scratch buffers read as the `k`-th iterate of the step. -/
theorem scratch_after (c : Dev nD) (i : grid0.Coords) (arg1 : Memref sig .tc .vmem S1024x64 .bf16) (harg1 : arg1.IsWhole) (arg2 : Memref sig .tc .vmem S8192x64 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x64 .f32) (harg7 : arg7.IsWhole)
    (x0 : Vec F S1024x64 .bf16) (x1 x2 : Vec F S8192x64 .bf16)
    (X2 : BufTy.Contents (Elt F) arg2.view.ty) (X3 : BufTy.Contents (Elt F) arg3.view.ty)
    (G5 : BufTy.Contents (Elt F) arg5.view.ty) (G6 : BufTy.Contents (Elt F) arg6.view.ty) (G7 : BufTy.Contents (Elt F) arg7.view.ty)
    (hX2 : arg2.view.read (Elt F) X2 = x1) (hX3 : arg3.view.read (Elt F) X3 = x2)
    (hG5 : arg5.view.read (Elt F) G5 = k0_pay2) (hG6 : arg6.view.read (Elt F) G6 = k0_pay3)
    (hG7 : arg7.view.read (Elt F) G7 = k0_pay4) (k : ℕ) (hk : k ≤ k0_t1_loop.trips) :
    arg5.view.read (Elt F) (arg5.view.writes (Elt F) G5 (pb_k0_t1 (F := F) Variants.none c none i arg1 harg1 arg2 harg2 arg3 harg3 arg4 harg4 arg5 harg5 arg6 harg6 arg7 harg7 x0 X2 X3 G5 G6 G7 k).1) = (st x0 x1 x2 k).1
    ∧ arg6.view.read (Elt F) (arg6.view.writes (Elt F) G6 (pb_k0_t1 (F := F) Variants.none c none i arg1 harg1 arg2 harg2 arg3 harg3 arg4 harg4 arg5 harg5 arg6 harg6 arg7 harg7 x0 X2 X3 G5 G6 G7 k).2.1) = (st x0 x1 x2 k).2.1
    ∧ arg7.view.read (Elt F) (arg7.view.writes (Elt F) G7 (pb_k0_t1 (F := F) Variants.none c none i arg1 harg1 arg2 harg2 arg3 harg3 arg4 harg4 arg5 harg5 arg6 harg6 arg7 harg7 x0 X2 X3 G5 G6 G7 k).2.2) = (st x0 x1 x2 k).2.2 := by
  induction k with
  | zero =>
    rw [pb_k0_t1.eq_1]
    exact ⟨hG5, hG6, hG7⟩
  | succ k ih =>
    have hk' : k < k0_t1_loop.trips := hk
    obtain ⟨i5, i6, i7⟩ := ih (Nat.le_of_lt hk')
    rw [pb_k0_t1.eq_2]; unfold pb_k0_t1Step; rw [dif_pos hk', st_succ x0 x1 x2 k hk']
    unfold tripL_k0_t1 trip_k0_t1
    dsimp only
    refine ⟨?_, ?_, ?_⟩
    · rw [List.singleton_append]
      refine (read_writes_whole (S := S1024x1) arg5.view G5 zero2 inb_S1024x1_S1024x1_0_0 _ _).trans ?_
      unfold trip_k0_t1.sl.r stStep
      simp only [View.readAt_eq_ld, hX2, i5, View.ld_unit_zero (S := S1024x1) zero2]
      rfl
    · rw [List.singleton_append]
      refine (read_writes_whole (S := S1024x1) arg6.view G6 zero2 inb_S1024x1_S1024x1_0_0 _ _).trans ?_
      unfold stStep
      simp only [View.readAt_eq_ld, hX2, i5, i6, View.ld_unit_zero (S := S1024x1) zero2]
      rfl
    · rw [List.singleton_append]
      refine (read_writes_whole (S := S1024x64) arg7.view G7 zero2 inb_S1024x64_S1024x64_0_0 _ _).trans ?_
      unfold stStep
      simp only [View.readAt_eq_ld, hX2, hX3, i5, i7, View.ld_unit_zero (S := S1024x1) zero2,
        View.ld_unit_zero (S := S1024x64) zero2]
      rfl

/-- The initial fills: each scratch buffer, after its one whole store before the loop, reads as that store. -/
theorem read_fill {sig : RefSig} {κ : Kind} {sp : Space} {S : Shape} {e : EltTy} (v : View sig κ sp S e)
    (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w :=
  read_writes_whole v f h inb w []

/-- THE BODY'S RESULT at one grid point: the block it leaves in the output's staging buffer is the final numerator
    divided, row by row, by the final denominator — the running quantities after all the chunks. -/
theorem out_eq (c : Dev nD) (i : grid0.Coords) (arg1 : Memref sig .tc .vmem S1024x64 .bf16) (harg1 : arg1.IsWhole) (arg2 : Memref sig .tc .vmem S8192x64 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x64 .f32) (harg7 : arg7.IsWhole)
    (x0 : Vec F S1024x64 .bf16) (x1 x2 : Vec F S8192x64 .bf16) :
    out0_A_3 c i arg1 harg1 arg2 harg2 arg3 harg3 arg4 harg4 arg5 harg5 arg6 harg6 arg7 harg7 x0 x1 x2
      = k0_pay6 (st x0 x1 x2 k0_t1_loop.trips).2.2 (st x0 x1 x2 k0_t1_loop.trips).2.1 := by
  unfold out0_A_3
  rw [View.read_writes_eq_canon _ _ _ (cover0_A_3 c i arg1 harg1 arg2 harg2 arg3 harg3 arg4 harg4 arg5 harg5 arg6 harg6 arg7 harg7 x0 x1 x2)]
  unfold kernelRun0_A
  dsimp only
  unfold kernelRun0_A.sl.v19 kernelRun0_A.sl.v20
  rw [View.canon_unit_zero zero2]
  have e0 : View.readAt (Elt F) arg1.view (Rect.unit ![0, 0] S1024x64.size inb_S1024x64_S1024x64_0_0).toLoadRect (harg1.unread x0) = x0 := by
    rw [View.readAt_eq_ld, harg1.read_unread, View.ld_unit_zero (S := S1024x64) zero2]
  rw [e0]
  have hG5 : arg5.view.read (Elt F) (arg5.view.writes (Elt F) arg5.view.junk kernelRun0_A.sl.HS0_1) = k0_pay2 := by
    unfold kernelRun0_A.sl.HS0_1; exact read_fill (S := S1024x1) arg5.view _ zero2 inb_S1024x1_S1024x1_0_0 _
  have hG6 : arg6.view.read (Elt F) (arg6.view.writes (Elt F) arg6.view.junk kernelRun0_A.sl.HS1_1) = k0_pay3 := by
    unfold kernelRun0_A.sl.HS1_1; exact read_fill (S := S1024x1) arg6.view _ zero2 inb_S1024x1_S1024x1_0_0 _
  have hG7 : arg7.view.read (Elt F) (arg7.view.writes (Elt F) arg7.view.junk kernelRun0_A.sl.HS2_1) = k0_pay4 := by
    unfold kernelRun0_A.sl.HS2_1; exact read_fill (S := S1024x64) arg7.view _ zero2 inb_S1024x64_S1024x64_0_0 _
  obtain ⟨-, h6, h7⟩ := scratch_after c i arg1 harg1 arg2 harg2 arg3 harg3 arg4 harg4 arg5 harg5 arg6 harg6 arg7 harg7 x0 x1 x2 (harg2.unread x1) (harg3.unread x2) _ _ _
    (harg2.read_unread x1) (harg3.read_unread x2) hG5 hG6 hG7 k0_t1_loop.trips le_rfl
  simp only [View.writes_append, View.readAt_eq_ld]
  rw [View.ld_unit_zero (S := S1024x64) zero2, View.ld_unit_zero (S := S1024x1) zero2]
  exact congrArg₂ k0_pay6 h7 h6

end Attention.Body

end
-- ==== Proof.BodyPayloads.lean ====
/-
  The body's arithmetic, read one entry at a time in exact arithmetic.

  Each value the body stores or carries is a short composition of entrywise operations, two matrix products,
  a row maximum, a row sum and a few changes of layout.  In exact arithmetic the format changes are the identity,
  so at row p (and column c, or key j) each value is a closed expression in the entries of its operands: the
  scaled query x · 1/8; the fills −∞, 0, 0; the score ∑_d q[p,d] · k[j,d]; the new row maximum
  max(m[p], max_j score[p,j]); the rescaling factor exp(m[p] − m'[p]); the weights exp(score[p,j] − m'[p]);
  the updated denominator and numerator; and the final quotient.
-/
import proofs.«164678_j74801150427275_2_alg».proof.Proof.BodyFold
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Attention.Pay

open Cert.KernelIdeal Cert.KernelIdeal.Gen Idealize.ShloMosaic Idealize.ShloMosaic.ValueIdx

/-! ## Two words -/

/-- The word 0x3E000000 is one eighth. -/
theorem scale_word : Ideal.ofBits .f32 0x3E000000#32 = ((1 / 8 : ℝ) : EReal) := by
  simp [Ideal.ofBits, Ideal.ieee, -EReal.coe_mul]; norm_num

/-- The word 0xFF800000 is −∞. -/
theorem neg_inf_word : Ideal.ofBits .f32 0xFF800000#32 = (⊥ : EReal) := by
  simp [Ideal.ofBits, Ideal.ieee]

/-! ## Changes of layout at an index -/

/-- A column [a, 1] broadcast along its unit axis to [a, b] reads the column's entry of the same row. -/
theorem broadcastTo_col_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) :=
  broadcastTo_apply x h (ix2 p c) (ix2 p (0 : Fin 1)) (fun e => match e with
    | ⟨0, _⟩ => by
      show p.val = if a = 1 then 0 else p.val
      split
      · have := p.isLt; omega
      · rfl
    | ⟨1, _⟩ => rfl)

/-- A vector [a] recast as a column [a, 1] reads the vector's entry of the same row. -/
theorem shapeCast_col_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h (ix2 p (0 : Fin 1)) (ix1 p) (by
    rw [Shape.rowMajor_val_one, Shape.rowMajor_val_two]
    show p.val = p.val * 1 + 0
    omega)

/-! ## The values stored before and after the loop -/

/-- The query block is scaled by one eighth. -/
theorem pay1_apply (x0 : Vec Ideal S1024x64 .bf16) (p : Fin 1024) (d : Fin 64) :
    k0_pay1 (F := Ideal) x0 (ix2 p d) = x0 (ix2 p d) * ((1 / 8 : ℝ) : EReal) := by
  unfold k0_pay1
  simp only [shapeCast_self]
  show x0 (ix2 p d) * Ideal.ofBits .f32 0x3E000000#32 = _
  rw [scale_word]

/-- The running maximum starts at −∞. -/
theorem pay2_apply (p : Fin 1024) : k0_pay2 (F := Ideal) (ix2 p (0 : Fin 1)) = (⊥ : EReal) := by
  unfold k0_pay2
  simp only [shapeCast_self]
  exact neg_inf_word

/-- The running denominator starts at 0. -/
theorem pay3_apply (p : Fin 1024) : k0_pay3 (F := Ideal) (ix2 p (0 : Fin 1)) = 0 := by
  unfold k0_pay3
  simp only [shapeCast_self]
  exact Ideal.ofBits_zero_f32

/-- The running numerator starts at 0. -/
theorem pay4_apply (p : Fin 1024) (c : Fin 64) : k0_pay4 (F := Ideal) (ix2 p c) = 0 := by
  unfold k0_pay4
  simp only [shapeCast_self]
  exact Ideal.ofBits_zero_f32

/-- The carried maximum is stored as it is. -/
theorem pay5_eq (v : FVec Ideal S1024x1 .f32) : k0_pay5 (F := Ideal) v = v := by
  unfold k0_pay5
  exact shapeCast_self v _

/-- The result is the numerator divided, row by row, by the denominator. -/
theorem pay6_apply (acc : Vec Ideal S1024x64 .f32) (l : Vec Ideal S1024x1 .f32) (p : Fin 1024) (c : Fin 64) :
    k0_pay6 (F := Ideal) acc l (ix2 p c) = Ideal.div (acc (ix2 p c)) (l (ix2 p (0 : Fin 1))) := by
  unfold k0_pay6
  show Ideal.div (acc (ix2 p c)) (broadcastTo S1024x64 l _ (ix2 p c)) = _
  rw [broadcastTo_col_apply]

/-! ## The scores -/

/-- Query rows against key rows: both operands are contracted along their second axis. -/
abbrev Dqk : DotDims S1024x64 S512x64 S1024x512 := dot_S1024x64_S512x64_S1024x512_1_1_0_0_n_n

theorem qk_lhs_row (i : S1024x512.Idx) (q : Dqk.contr.Idx) : (Dqk.lhsIdx i q 0).val = (i 0).val := by
  unfold DotDims.lhsIdx
  rw [dif_neg (show ¬(0 : Fin S1024x64.rank) ∈ Dqk.lhsBatch by decide),
    dif_pos (show (0 : Fin S1024x64.rank) ∈ Dqk.lhsNonContracting by decide)]
  rfl

theorem qk_rhs_row (i : S1024x512.Idx) (q : Dqk.contr.Idx) : (Dqk.rhsIdx i q 0).val = (i 1).val := by
  unfold DotDims.rhsIdx
  rw [dif_neg (show ¬(0 : Fin S512x64.rank) ∈ Dqk.rhsBatch by decide),
    dif_pos (show (0 : Fin S512x64.rank) ∈ Dqk.rhsNonContracting by decide)]
  rfl

/-- The score of query row p against key row j of the chunk: the dot product of the two rows. -/
theorem pay7_apply (q : FVec Ideal S1024x64 .bf16) (kc : Vec Ideal S512x64 .bf16) (p : Fin 1024) (j : Fin 512) :
    k0_pay7 (F := Ideal) q kc (ix2 p j) = ∑ d : Fin 64, q (ix2 p d) * kc (ix2 j d) := by
  unfold k0_pay7
  simp only [shapeCast_self]
  refine (Ideal.matmul_constant_zero_apply Dqk none q kc (ix2 p j)).trans ?_
  rw [← Equiv.sum_comp (contrEquiv1 Dqk 64 rfl rfl).symm]
  refine Finset.sum_congr rfl fun k _ => ?_
  have hk := contrEquiv1_symm_val Dqk 64 rfl rfl k
  have el : Dqk.lhsIdx (ix2 p j) ((contrEquiv1 Dqk 64 rfl rfl).symm k) = ix2 p k := funext fun a => Fin.ext (by
    match a with
    | ⟨0, _⟩ => exact qk_lhs_row _ _
    | ⟨1, _⟩ => exact (Dqk.lhsIdx_val_of_single rfl _ _).trans hk)
  have er : Dqk.rhsIdx (ix2 p j) ((contrEquiv1 Dqk 64 rfl rfl).symm k) = ix2 j k := funext fun a => Fin.ext (by
    match a with
    | ⟨0, _⟩ => exact qk_rhs_row _ _
    | ⟨1, _⟩ => exact (Dqk.rhsIdx_val_of_single rfl _ _).trans hk)
  rw [el, er]

/-! ## The running maximum, the rescaling factor and the weights -/

/-- Inserting key j on the dropped axis of row p gives the entry [p, j]. -/
theorem lift_row (h : S1024x512.Reduces [1] S1024) (p : Fin 1024) (j : Fin 512) : h.lift (ix1 p) j = ix2 p j :=
  funext fun a => Fin.ext (by match a with | ⟨0, _⟩ => rfl | ⟨1, _⟩ => rfl)

/-- The maximum over the keys of a [1024, 512] array, started from −∞, at row p. -/
theorem rowmax_apply (src : FVec Ideal S1024x512 .f32) (h : S1024x512.Reduces [1] S1024) (hφ : FKind.Formats .f32)
    (hacc : (0xFF800000#32 : BitVec 32) = FKind.maximumf.neutral .f32 hφ) (p : Fin 1024) :
    multiReduction (F := Ideal) .maximumf [1] S1024 src 0xFF800000#32 h hφ hacc (ix1 p)
      = (Finset.univ : Finset (Fin 512)).fold max (⊥ : EReal) (fun j => src (ix2 p j)) := by
  refine (Ideal.multiReduction_maximumf_single src _ h hφ hacc (ix1 p)).trans ?_
  show (Finset.univ : Finset (Fin 512)).fold max (Ideal.ofBits .f32 0xFF800000#32) (src ∘ h.lift (ix1 p)) = _
  rw [neg_inf_word]
  exact congrArg (fun f => (Finset.univ : Finset (Fin 512)).fold max (⊥ : EReal) f)
    (funext fun k => congrArg src (lift_row h p k))

/-- The sum over the keys of a [1024, 512] array at row p. -/
theorem rowsum_apply (src : FVec Ideal S1024x512 .f32) (h : S1024x512.Reduces [1] S1024) (hφ : FKind.Formats .f32)
    (hacc : (0x00000000#32 : BitVec 32) = FKind.add.neutral .f32 hφ) (p : Fin 1024) :
    multiReduction (F := Ideal) .add [1] S1024 src 0x00000000#32 h hφ hacc (ix1 p) = ∑ j : Fin 512, src (ix2 p j) := by
  refine (Ideal.multiReduction_add_single src _ h hφ hacc (ix1 p)).trans ?_
  exact Finset.sum_congr rfl fun k _ => congrArg src (lift_row h p k)

/-- The new maximum of row p: the old one against the largest score of the chunk. -/
theorem pay8_apply (q : FVec Ideal S1024x64 .bf16) (kc : Vec Ideal S512x64 .bf16) (m : Vec Ideal S1024x1 .f32) (p : Fin 1024) :
    k0_pay8 (F := Ideal) q kc m (ix2 p (0 : Fin 1))
      = max (m (ix2 p (0 : Fin 1))) ((Finset.univ : Finset (Fin 512)).fold max (⊥ : EReal) (fun j => k0_pay7 (F := Ideal) q kc (ix2 p j))) := by
  unfold k0_pay8
  refine (maximumf_apply _ _ _).trans (congrArg (max (m (ix2 p (0 : Fin 1)))) ?_)
  refine (shapeCast_col_apply _ _ p).trans ?_
  exact rowmax_apply _ _ _ _ p

/-- The factor by which row p's old sums are rescaled: exp(old maximum − new maximum). -/
theorem pay9_apply (q : FVec Ideal S1024x64 .bf16) (kc : Vec Ideal S512x64 .bf16) (m : Vec Ideal S1024x1 .f32) (p : Fin 1024) :
    k0_pay9 (F := Ideal) q kc m (ix2 p (0 : Fin 1))
      = Ideal.exp (m (ix2 p (0 : Fin 1)) - k0_pay8 (F := Ideal) q kc m (ix2 p (0 : Fin 1))) := by
  unfold k0_pay9
  rfl

/-- The weight of key j for row p: exp(score − new maximum). -/
theorem pay10_apply (q : FVec Ideal S1024x64 .bf16) (kc : Vec Ideal S512x64 .bf16) (m : Vec Ideal S1024x1 .f32) (p : Fin 1024) (j : Fin 512) :
    k0_pay10 (F := Ideal) q kc m (ix2 p j)
      = Ideal.exp (k0_pay7 (F := Ideal) q kc (ix2 p j) - k0_pay8 (F := Ideal) q kc m (ix2 p (0 : Fin 1))) := by
  unfold k0_pay10
  show Ideal.exp (k0_pay7 (F := Ideal) q kc (ix2 p j) - broadcastTo S1024x512 (k0_pay8 (F := Ideal) q kc m) _ (ix2 p j)) = _
  rw [broadcastTo_col_apply]

/-! ## The updated denominator and numerator -/

/-- Row p's new denominator: the old one rescaled, plus the chunk's weights. -/
theorem pay11_apply (q : FVec Ideal S1024x64 .bf16) (kc : Vec Ideal S512x64 .bf16) (m l : Vec Ideal S1024x1 .f32) (p : Fin 1024) :
    k0_pay11 (F := Ideal) q kc m l (ix2 p (0 : Fin 1))
      = k0_pay9 (F := Ideal) q kc m (ix2 p (0 : Fin 1)) * l (ix2 p (0 : Fin 1)) + ∑ j : Fin 512, k0_pay10 (F := Ideal) q kc m (ix2 p j) := by
  unfold k0_pay11
  simp only [shapeCast_self]
  refine (addf_apply _ _ _).trans (congrArg₂ (· + ·) (mulf_apply _ _ _) ?_)
  refine (shapeCast_col_apply _ _ p).trans ?_
  exact rowsum_apply _ _ _ _ p

/-- Weights against value rows: the weights' second axis is contracted with the values' first. -/
abbrev Dpv : DotDims S1024x512 S512x64 S1024x64 := dot_S1024x512_S512x64_S1024x64_1_0_0_1_n_n

theorem pv_lhs_row (i : S1024x64.Idx) (q : Dpv.contr.Idx) : (Dpv.lhsIdx i q 0).val = (i 0).val := by
  unfold DotDims.lhsIdx
  rw [dif_neg (show ¬(0 : Fin S1024x512.rank) ∈ Dpv.lhsBatch by decide),
    dif_pos (show (0 : Fin S1024x512.rank) ∈ Dpv.lhsNonContracting by decide)]
  rfl

theorem pv_rhs_col (i : S1024x64.Idx) (q : Dpv.contr.Idx) : (Dpv.rhsIdx i q 1).val = (i 1).val := by
  unfold DotDims.rhsIdx
  rw [dif_neg (show ¬(1 : Fin S512x64.rank) ∈ Dpv.rhsBatch by decide),
    dif_pos (show (1 : Fin S512x64.rank) ∈ Dpv.rhsNonContracting by decide)]
  rfl

/-- The weights times the value rows at row p, column c. -/
theorem pv_apply (w : FVec Ideal S1024x512 .bf16) (vc : FVec Ideal S512x64 .bf16) (p : Fin 1024) (c : Fin 64) :
    matmul (F := Ideal) Dpv none w vc (constant S1024x64 .f32 0x00000000#32) (ix2 p c) = ∑ j : Fin 512, w (ix2 p j) * vc (ix2 j c) := by
  refine (Ideal.matmul_constant_zero_apply Dpv none w vc (ix2 p c)).trans ?_
  rw [← Equiv.sum_comp (contrEquiv1 Dpv 512 rfl rfl).symm]
  refine Finset.sum_congr rfl fun k _ => ?_
  have hk := contrEquiv1_symm_val Dpv 512 rfl rfl k
  have el : Dpv.lhsIdx (ix2 p c) ((contrEquiv1 Dpv 512 rfl rfl).symm k) = ix2 p k := funext fun a => Fin.ext (by
    match a with
    | ⟨0, _⟩ => exact pv_lhs_row _ _
    | ⟨1, _⟩ => exact (Dpv.lhsIdx_val_of_single rfl _ _).trans hk)
  have er : Dpv.rhsIdx (ix2 p c) ((contrEquiv1 Dpv 512 rfl rfl).symm k) = ix2 k c := funext fun a => Fin.ext (by
    match a with
    | ⟨0, _⟩ => exact (Dpv.rhsIdx_val_of_single rfl _ _).trans hk
    | ⟨1, _⟩ => exact pv_rhs_col _ _)
  rw [el, er]

/-- Row p's new numerator: the old one rescaled, plus the chunk's weighted value rows. -/
theorem pay12_apply (q : FVec Ideal S1024x64 .bf16) (kc vc : Vec Ideal S512x64 .bf16) (m : Vec Ideal S1024x1 .f32)
    (acc : Vec Ideal S1024x64 .f32) (p : Fin 1024) (c : Fin 64) :
    k0_pay12 (F := Ideal) q kc vc m acc (ix2 p c)
      = k0_pay9 (F := Ideal) q kc m (ix2 p (0 : Fin 1)) * acc (ix2 p c) + ∑ j : Fin 512, k0_pay10 (F := Ideal) q kc m (ix2 p j) * vc (ix2 j c) := by
  unfold k0_pay12
  simp only [shapeCast_self]
  refine (addf_apply _ _ _).trans (congrArg₂ (· + ·) ?_ ?_)
  · exact (mulf_apply _ _ _).trans (congrArg (· * acc (ix2 p c)) (broadcastTo_col_apply _ _ p c))
  · exact pv_apply _ vc p c

/-! ## A chunk of the key or value rows -/

/-- Chunk k's rows lie inside the 8192 rows. -/
theorem chunk_lt (k : Fin k0_t1_loop.trips) (j : Fin 512) : 512 * k.val + j.val < 8192 := by
  have h1 := k.isLt
  have h2 := k0_t1_abs.2.1
  have h3 := j.isLt
  omega

/-- Row j of chunk k is row 512 k + j of the whole array. -/
theorem chunk_apply (X : Vec Ideal S8192x64 .bf16) (k : Fin k0_t1_loop.trips) (j : Fin 512) (d : Fin 64) :
    Attention.Body.chunk (F := Ideal) X k (ix2 j d) = X (ix2 (⟨512 * k.val + j.val, chunk_lt k j⟩ : Fin 8192) d) := by
  unfold Attention.Body.chunk
  show X ((Rect.unit (s := S8192x64) (k0_off1 k) S512x64.size _).idx (ix2 j d)) = _
  refine congrArg X (funext fun a => Fin.ext ?_)
  match a with
  | ⟨0, _⟩ =>
    show k0_off1 k 0 + 1 * j.val = 512 * k.val + j.val
    rw [k0_off1_eq]
    show 512 * k.val + 1 * j.val = _
    omega
  | ⟨1, _⟩ =>
    show k0_off1 k 1 + 1 * d.val = d.val
    rw [k0_off1_eq]
    show 0 + 1 * d.val = _
    omega

end Attention.Pay

end
-- ==== Proof.OnlineSoftmax.lean ====
/-
  The running ("online") form of softmax-weighted sums, over the reals.

  A softmax-weighted average `(∑ exp (sₙ) wₙ) / (∑ exp (sₙ))` can be accumulated chunk by chunk while every exponent is
  taken relative to a running maximum: if the sums over the first `a` terms were taken relative to `M`, multiplying
  them by `exp (M − M')` makes them relative to `M'` (since `exp (M − M') · exp (s − M) = exp (s − M')`), and the next
  chunk's terms relative to `M'` are then simply added. At the end the common factor `exp (−M)` cancels between numerator
  and denominator, so the shift is invisible in the quotient. Beside that: the running maximum, started from `−∞`, is a
  real number as soon as one real has been seen; the coercion of reals into the extended reals commutes with finite
  sums; and the attention entry of the specification, a sum over `Fin k`, is the same sum over `range k` of the scores
  and values extended by zero.
-/
import proofs.«164678_j74801150427275_2_alg».proof.Proof.Spec

noncomputable section

open Finset
open scoped BigOperators

namespace Attention.Online

/-- The coercion `ℝ → EReal` commutes with finite sums: it sends `0` to `0` and a sum of two reals to the sum. -/
theorem coe_sum {ι : Type*} (S : Finset ι) (f : ι → ℝ) : ((∑ i ∈ S, f i : ℝ) : EReal) = ∑ i ∈ S, (f i : EReal) := by
  classical
  induction S using Finset.induction_on with
  | empty => rw [Finset.sum_empty, Finset.sum_empty, EReal.coe_zero]
  | insert a S ha ih => rw [Finset.sum_insert ha, Finset.sum_insert ha, EReal.coe_add, ih]

/-- The maximum of `−∞` or a real with a real is a real: `max ⊥ r = r`, and the coercion is monotone, so
    `max ↑M ↑r = ↑(max M r)`. -/
theorem max_real (m : EReal) (hm : m = ⊥ ∨ ∃ M : ℝ, m = (M : EReal)) (r : ℝ) : ∃ M' : ℝ, max m (r : EReal) = (M' : EReal) := by
  rcases hm with rfl | ⟨M, rfl⟩
  · exact ⟨r, max_eq_right bot_le⟩
  · exact ⟨max M r, (EReal.coe_strictMono.monotone.map_max (a := M) (b := r)).symm⟩

/-- The maximum, from `−∞`, of finitely many reals is `−∞` or a real. -/
theorem fold_max_bot_or_real {ι : Type*} (S : Finset ι) (g : ι → ℝ) :
    S.fold max (⊥ : EReal) (fun i => (g i : EReal)) = ⊥ ∨ ∃ r : ℝ, S.fold max (⊥ : EReal) (fun i => (g i : EReal)) = (r : EReal) := by
  classical
  induction S using Finset.induction_on with
  | empty => exact Or.inl (Finset.fold_empty)
  | insert a S ha ih =>
    refine Or.inr ?_
    rw [Finset.fold_insert ha, max_comm]
    exact max_real _ ih (g a)

/-- The maximum, from `−∞`, of finitely many reals over a nonempty index set is a real: take one index out; the maximum
    over the rest is `−∞` or a real, and its maximum with the real taken out is a real. -/
theorem fold_max_real {ι : Type*} (S : Finset ι) (hS : S.Nonempty) (g : ι → ℝ) :
    ∃ r : ℝ, S.fold max (⊥ : EReal) (fun i => (g i : EReal)) = (r : EReal) := by
  classical
  obtain ⟨a, ha⟩ := hS
  rw [← Finset.insert_erase ha, Finset.fold_insert (Finset.notMem_erase a S), max_comm]
  exact max_real _ (fold_max_bot_or_real (S.erase a) g) (g a)

/-- One step of the running softmax: the terms so far, relative to the old maximum `M`, rescaled by `exp (M − M')`,
    plus the new chunk's terms relative to the new maximum `M'`, are all the terms relative to `M'`. Before the first
    chunk there are no terms and the factor is irrelevant. -/
theorem online_step (s w : ℕ → ℝ) (a b : ℕ) (α M M' : ℝ) (h : a = 0 ∨ α = Real.exp (M - M')) :
    α * (∑ n ∈ range a, Real.exp (s n - M) * w n) + ∑ j : Fin b, Real.exp (s (a + j.val) - M') * w (a + j.val)
      = ∑ n ∈ range (a + b), Real.exp (s n - M') * w n := by
  rw [Finset.sum_range_add, Fin.sum_univ_eq_sum_range (fun x => Real.exp (s (a + x) - M') * w (a + x)) b]
  congr 1
  rcases h with rfl | rfl
  · rw [Finset.range_zero, Finset.sum_empty, Finset.sum_empty, mul_zero]
  · rw [Finset.mul_sum]
    refine Finset.sum_congr rfl fun n _ => ?_
    rw [← mul_assoc, ← Real.exp_add]
    congr 2
    ring

/-- The weighted average does not depend on the shift: `exp (s − M) = exp s · exp (−M)`, and the factor `exp (−M)`,
    which is not zero, comes out of both sums and cancels. -/
theorem shift_ratio (s w : ℕ → ℝ) (N : ℕ) (M : ℝ) :
    (∑ n ∈ range N, Real.exp (s n - M) * w n) / (∑ n ∈ range N, Real.exp (s n - M))
      = (∑ n ∈ range N, Real.exp (s n) * w n) / (∑ n ∈ range N, Real.exp (s n)) := by
  have e1 : ∑ n ∈ range N, Real.exp (s n - M) * w n = (∑ n ∈ range N, Real.exp (s n) * w n) * Real.exp (-M) := by
    rw [Finset.sum_mul]
    refine Finset.sum_congr rfl fun n _ => ?_
    rw [sub_eq_add_neg, Real.exp_add]
    ring
  have e2 : ∑ n ∈ range N, Real.exp (s n - M) = (∑ n ∈ range N, Real.exp (s n)) * Real.exp (-M) := by
    rw [Finset.sum_mul]
    refine Finset.sum_congr rfl fun n _ => ?_
    rw [sub_eq_add_neg, Real.exp_add]
  rw [e1, e2, mul_div_mul_right _ _ (Real.exp_ne_zero _)]

/-- A nonempty sum of exponentials is positive. -/
theorem denom_pos (s : ℕ → ℝ) (N : ℕ) (hN : 0 < N) (M : ℝ) : 0 < ∑ n ∈ range N, Real.exp (s n - M) :=
  Finset.sum_pos (fun _ _ => Real.exp_pos _) (Finset.nonempty_range_iff.mpr (Nat.pos_iff_ne_zero.mp hN))

/-- A function on `Fin N` extended by zero to `ℕ`. -/
def ext {N : ℕ} (g : Fin N → ℝ) (n : ℕ) : ℝ := if h : n < N then g ⟨n, h⟩ else 0

theorem ext_lt {N : ℕ} (g : Fin N → ℝ) (n : ℕ) (h : n < N) : ext g n = g ⟨n, h⟩ := dif_pos h

/-- The specification's attention entry as sums over `range k` of the extended scores and values: below `k` the
    extensions are the functions themselves, and a sum over `range k` is the sum over `Fin k`. -/
theorem attn_eq_range {n k : ℕ} (Q : Fin n → Fin 64 → ℝ) (K V : Fin k → Fin 64 → ℝ) (r : Fin n) (c : Fin 64) :
    Attention.attn Q K V r c
      = (∑ m ∈ range k, Real.exp (ext (Attention.score Q K r) m) * ext (fun j => V j c) m) / (∑ m ∈ range k, Real.exp (ext (Attention.score Q K r) m)) := by
  unfold Attention.attn
  rw [Finset.sum_range, Finset.sum_range]
  simp only [ext_lt _ _ (Fin.is_lt _), Fin.eta]

end Attention.Online

end
-- ==== Proof.BodyIdeal.lean ====
/-
  The kernel's body at exact arithmetic, for real inputs: the block it writes is the attention rows of its tile.

  Fix a query row `p` of the tile. Write `s n` for its scaled score against key row `n` and `v n` for a
  column of the value rows. After `k` chunks of 512 key/value rows the three running quantities of that row are
    maximum     M         (a real; −∞ only before the first chunk),
    denominator ∑_{n < 512 k} exp (s n − M),
    numerator   ∑_{n < 512 k} exp (s n − M) · v n.
  A chunk replaces `M` by the larger `M'` of `M` and the chunk's greatest score, multiplies both sums by
  `exp (M − M')` — which turns every `exp (s n − M)` into `exp (s n − M')` — and adds the chunk's own terms.
  Before the first chunk `M = −∞`, the factor is `exp (−∞) = 0` and both sums are empty, so the same formula holds.
  After the last chunk the quotient numerator / denominator no longer depends on `M`: it is
  `(∑ exp (s n) · v n) / ∑ exp (s n)`, the attention entry. The denominator is a sum of positive reals, so the
  division is the reals' own.
-/
import proofs.«164678_j74801150427275_2_alg».proof.Proof.Spec
import proofs.«164678_j74801150427275_2_alg».proof.Proof.BodyFold
import proofs.«164678_j74801150427275_2_alg».proof.Proof.BodyPayloads
import proofs.«164678_j74801150427275_2_alg».proof.Proof.OnlineSoftmax

set_option maxRecDepth 16384

noncomputable section

open scoped BigOperators

namespace Attention.Body

open Cert.KernelIdeal Cert.KernelIdeal.Gen
open Idealize.ShloMosaic Idealize.ShloMosaic.ValueIdx
open Attention Attention.Pay Finset

variable (Qt : Fin 1024 → Fin 64 → ℝ) (K V : Fin 8192 → Fin 64 → ℝ)

/-- The scores of query row `p` against the key rows, as a sequence. -/
abbrev sc (p : Fin 1024) : ℕ → ℝ := Online.ext (score Qt K p)
/-- Column `c` of the value rows, as a sequence. -/
abbrev vw (c : Fin 64) : ℕ → ℝ := Online.ext (fun j => V j c)

/-- The loop visits sixteen chunks. -/
theorem trips_eq : k0_t1_loop.trips = 16 := by decide +kernel

/-- A chunk's score block: row `p` of the scaled queries against row `j` of the chunk's keys is the score against
    key row `512 k + j` (the scale 1/8 moves out of the dot product). -/
theorem score_chunk (k : Fin k0_t1_loop.trips) (p : Fin 1024) (j : Fin 512) :
    k0_pay7 (F := Ideal) (k0_pay1 (F := Ideal) (lift Qt)) (chunk (F := Ideal) (lift K) k) (ix2 p j)
      = ((sc Qt K p (512 * k.val + j.val) : ℝ) : EReal) := by
  rw [pay7_apply]
  have h : ∀ d : Fin 64, k0_pay1 (F := Ideal) (lift Qt) (ix2 p d) * chunk (F := Ideal) (lift K) k (ix2 j d)
      = ((Qt p d * (1 / 8) * K ⟨512 * k.val + j.val, chunk_lt k j⟩ d : ℝ) : EReal) := by
    intro d
    rw [pay1_apply, chunk_apply, lift_ix2, lift_ix2, ← EReal.coe_mul, ← EReal.coe_mul]
  rw [Finset.sum_congr rfl (fun d _ => h d), ← Online.coe_sum, EReal.coe_eq_coe_iff]
  refine Eq.trans ?_ (Online.ext_lt (score Qt K p) _ (chunk_lt k j)).symm
  unfold score
  rw [Finset.sum_mul]
  exact Finset.sum_congr rfl (fun d _ => by ring)

/-- A chunk's value block: row `j` is value row `512 k + j`. -/
theorem value_chunk (k : Fin k0_t1_loop.trips) (j : Fin 512) (c : Fin 64) :
    chunk (F := Ideal) (lift V) k (ix2 j c) = ((vw V c (512 * k.val + j.val) : ℝ) : EReal) := by
  rw [chunk_apply, lift_ix2, EReal.coe_eq_coe_iff]
  exact (Online.ext_lt (fun j => V j c) _ (chunk_lt k j)).symm

/-- What the three running quantities of row `p` are after `k` chunks. -/
def Inv (p : Fin 1024) (k : ℕ) (S : St Ideal) : Prop :=
  ∃ M : ℝ, ((S.1 (ix2 p (0 : Fin 1)) = (⊥ : EReal) ∧ k = 0) ∨ S.1 (ix2 p (0 : Fin 1)) = (M : EReal))
    ∧ S.2.1 (ix2 p (0 : Fin 1)) = ((∑ n ∈ range (512 * k), Real.exp (sc Qt K p n - M) : ℝ) : EReal)
    ∧ ∀ c : Fin 64, S.2.2 (ix2 p c) = ((∑ n ∈ range (512 * k), Real.exp (sc Qt K p n - M) * vw V c n : ℝ) : EReal)

/-- One chunk keeps the description. -/
theorem inv_step (p : Fin 1024) (k : ℕ) (hk : k < k0_t1_loop.trips) (S : St Ideal) (h : Inv Qt K V p k S) :
    Inv Qt K V p (k + 1) (stStep (k0_pay1 (F := Ideal) (lift Qt)) (chunk (F := Ideal) (lift K) ⟨k, hk⟩)
      (chunk (F := Ideal) (lift V) ⟨k, hk⟩) S) := by
  obtain ⟨M, hm, hl, hacc⟩ := h
  -- the chunk's greatest score is a real, and so is the new maximum
  obtain ⟨R, hR⟩ := Online.fold_max_real (Finset.univ : Finset (Fin 512)) Finset.univ_nonempty
    (fun j => sc Qt K p (512 * k + j.val))
  have hm0 : S.1 (ix2 p (0 : Fin 1)) = (⊥ : EReal) ∨ ∃ M0 : ℝ, S.1 (ix2 p (0 : Fin 1)) = (M0 : EReal) := by
    rcases hm with ⟨hb, _⟩ | hr
    · exact Or.inl hb
    · exact Or.inr ⟨M, hr⟩
  obtain ⟨M', hM'⟩ := Online.max_real _ hm0 R
  have h8 : k0_pay8 (F := Ideal) (k0_pay1 (F := Ideal) (lift Qt)) (chunk (F := Ideal) (lift K) ⟨k, hk⟩) S.1 (ix2 p (0 : Fin 1))
      = (M' : EReal) := by
    rw [pay8_apply]
    have e : (fun j : Fin 512 => k0_pay7 (F := Ideal) (k0_pay1 (F := Ideal) (lift Qt)) (chunk (F := Ideal) (lift K) ⟨k, hk⟩) (ix2 p j))
        = fun j : Fin 512 => ((sc Qt K p (512 * k + j.val) : ℝ) : EReal) :=
      funext fun j => score_chunk Qt K ⟨k, hk⟩ p j
    rw [e, hR, hM']
  -- the rescaling factor is a real: exp (M − M'), or 0 before the first chunk
  obtain ⟨α, h9, hα⟩ : ∃ α : ℝ, k0_pay9 (F := Ideal) (k0_pay1 (F := Ideal) (lift Qt)) (chunk (F := Ideal) (lift K) ⟨k, hk⟩) S.1 (ix2 p (0 : Fin 1)) = (α : EReal)
      ∧ (512 * k = 0 ∨ α = Real.exp (M - M')) := by
    rw [pay9_apply, h8]
    rcases hm with ⟨hb, hk0⟩ | hr
    · refine ⟨0, ?_, Or.inl (by omega)⟩
      rw [hb, EReal.bot_sub, Ideal.exp_bot, EReal.coe_zero]
    · refine ⟨Real.exp (M - M'), ?_, Or.inr rfl⟩
      rw [hr, ← EReal.coe_sub, Ideal.exp_coe]
  have h10 : ∀ j : Fin 512, k0_pay10 (F := Ideal) (k0_pay1 (F := Ideal) (lift Qt)) (chunk (F := Ideal) (lift K) ⟨k, hk⟩) S.1 (ix2 p j)
      = ((Real.exp (sc Qt K p (512 * k + j.val) - M') : ℝ) : EReal) := by
    intro j
    rw [pay10_apply, h8, score_chunk Qt K ⟨k, hk⟩ p j, ← EReal.coe_sub, Ideal.exp_coe]
  have e512 : 512 * (k + 1) = 512 * k + 512 := by ring
  refine ⟨M', Or.inr ?_, ?_, ?_⟩
  · show k0_pay5 (F := Ideal) (k0_pay8 (F := Ideal) _ _ S.1) (ix2 p (0 : Fin 1)) = _
    rw [pay5_eq, h8]
  · show k0_pay11 (F := Ideal) _ _ S.1 S.2.1 (ix2 p (0 : Fin 1)) = _
    have hsum : ∑ j : Fin 512, k0_pay10 (F := Ideal) (k0_pay1 (F := Ideal) (lift Qt)) (chunk (F := Ideal) (lift K) ⟨k, hk⟩) S.1 (ix2 p j)
        = ∑ j : Fin 512, ((Real.exp (sc Qt K p (512 * k + j.val) - M') : ℝ) : EReal) :=
      Finset.sum_congr rfl (fun j _ => h10 j)
    rw [pay11_apply, h9, hl, hsum, ← Online.coe_sum, ← EReal.coe_mul, ← EReal.coe_add, EReal.coe_eq_coe_iff]
    have hs := Online.online_step (sc Qt K p) (fun _ => (1 : ℝ)) (512 * k) 512 α M M' hα
    simp only [mul_one] at hs
    rw [e512]; exact hs
  · intro c
    show k0_pay12 (F := Ideal) _ _ _ S.1 S.2.2 (ix2 p c) = _
    have hsum : ∑ j : Fin 512, k0_pay10 (F := Ideal) (k0_pay1 (F := Ideal) (lift Qt)) (chunk (F := Ideal) (lift K) ⟨k, hk⟩) S.1 (ix2 p j)
          * chunk (F := Ideal) (lift V) ⟨k, hk⟩ (ix2 j c)
        = ∑ j : Fin 512, ((Real.exp (sc Qt K p (512 * k + j.val) - M') * vw V c (512 * k + j.val) : ℝ) : EReal) :=
      Finset.sum_congr rfl (fun j _ => by rw [h10 j, value_chunk V ⟨k, hk⟩ j c, ← EReal.coe_mul])
    rw [pay12_apply, h9, hacc c, hsum, ← Online.coe_sum, ← EReal.coe_mul, ← EReal.coe_add, EReal.coe_eq_coe_iff]
    rw [e512]
    exact Online.online_step (sc Qt K p) (vw V c) (512 * k) 512 α M M' hα

/-- The description holds after every number of chunks. -/
theorem inv_st (p : Fin 1024) (k : ℕ) (hk : k ≤ k0_t1_loop.trips) :
    Inv Qt K V p k (st (F := Ideal) (lift Qt) (lift K) (lift V) k) := by
  induction k with
  | zero =>
    refine ⟨0, Or.inl ⟨pay2_apply p, rfl⟩, ?_, ?_⟩
    · show k0_pay3 (F := Ideal) (ix2 p (0 : Fin 1)) = _
      rw [pay3_apply]; simp
    · intro c
      show k0_pay4 (F := Ideal) (ix2 p c) = _
      rw [pay4_apply]; simp
  | succ k ih =>
    have hk' : k < k0_t1_loop.trips := hk
    rw [st_succ _ _ _ k hk']
    exact inv_step Qt K V p k hk' _ (ih (Nat.le_of_lt hk'))

/-- THE BODY'S VALUE: from a tile of query rows and all the key and value rows, as real matrices, the block the
    body writes back is the attention rows of the tile. -/
theorem body_value (c : Dev nD) (i : grid0.Coords) (arg1 : Memref sig .tc .vmem S1024x64 .bf16) (harg1 : arg1.IsWhole) (arg2 : Memref sig .tc .vmem S8192x64 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x64 .f32) (harg7 : arg7.IsWhole) :
    out0_A_3 (F := Ideal) c i arg1 harg1 arg2 harg2 arg3 harg3 arg4 harg4 arg5 harg5 arg6 harg6 arg7 harg7 (lift Qt) (lift K) (lift V) = lift (attn Qt K V) := by
  rw [out_eq]
  funext y
  obtain ⟨p, cc, rfl⟩ : ∃ (p : Fin 1024) (cc : Fin 64), y = ix2 p cc := ⟨y 0, y 1, eq_ix2 y⟩
  obtain ⟨M, -, hl, hacc⟩ := inv_st Qt K V p k0_t1_loop.trips le_rfl
  have e : 512 * k0_t1_loop.trips = 8192 := by rw [trips_eq]
  rw [e] at hl hacc
  have hD : 0 < ∑ n ∈ range 8192, Real.exp (sc Qt K p n - M) := Online.denom_pos _ _ (by norm_num) M
  rw [pay6_apply, hacc cc, hl, lift_ix2, Ideal.div_coe (ne_of_gt hD), ← EReal.coe_mul, EReal.coe_eq_coe_iff]
  rw [Online.attn_eq_range, ← Online.shift_ratio (sc Qt K p) (vw V cc) 8192 M, mul_one_div]

end Attention.Body

end
-- ==== Proof.KernelBlocks.lean ====
/-
  Where the blocks sit in their arrays.

  The grid has eight points. At point `t` the query window and the result window each hold a block of 1024 rows and
  all 64 columns; the block's row `r` is row `1024·t + r` of the array, its column `d` is column `d`. The key and
  value windows hold one block of all 8192 rows at every point: the block is the array.

  Hence two readings. An input block read at a row and a column is the array read at the row and column above. And if,
  at every point, the rows the body leaves for the result are the corresponding rows of one function `G` of the whole
  index set, then after the eight write-backs the result array is `G`: each row `r` of the array lies in the block of
  point `r / 1024`, so every entry has been written, and every write put `G`'s value there.

  Nothing here looks at what the body computes.
-/
import proofs.«164678_j74801150427275_2_alg».proof.Proof.Gen.KernelIdeal.Value
import Idealize.ShloMosaic.Lib.ValueIdx
import Idealize.ShloMosaic.Lib.Pipeline.Value

noncomputable section

namespace Attention.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (c : Dev nD)

/-- Row `p` of the block at point `t` is a row of the array: `1024·t + p < 8·1024`. -/
theorem row_lt (t : Fin cfg0.N) (p : Fin 1024) : 1024 * t.val + p.val < 8192 := by
  have ht : t.val < 8 := t.isLt
  have hp : p.val < 1024 := p.isLt
  omega

/-- The four index maps at each of the eight points: the query and result windows are at block `(t, 0)`, the key and
    value windows at block `(0, 0)`. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The result: from the eight blocks to the array -/

/-- If the body leaves rows `1024·t …` of `G` at point `t`, then what point `t` writes back is its block of `G`:
    entry `(p, q)` of the block sits at `(t·1024 + p, 0·64 + q)` in the array. -/
theorem written_back_eq (G : S8192x64.Idx → EReal)
    (h : ∀ (t : Fin cfg0.N) (p : Fin 1024) (q : Fin 64),
      outsAt0 (F := Ideal) m c t (ix2 p q) = G (ix2 (⟨1024 * t.val + p.val, row_lt t p⟩ : Fin 8192) q))
    (t : Fin cfg0.N) :
    (dats (F := Ideal) m 0 c).flushed 3 t = ((cfg0.win 3).blk t).view.read (Elt Ideal) G := by
  rw [Value.flushed3]
  funext j
  rw [View.read_apply]
  have ej : (j : S1024x64.Idx) = ix2 (j 0) (j 1) := eq_ix2 (n0 := 1024) (n1 := 64) j
  obtain ⟨-, -, -, -, -, -, e0, e1⟩ := block_index t
  show outsAt0 (F := Ideal) m c t j = G (((cfg0.win 3).blk t).view.emb j)
  refine (congrArg (outsAt0 (F := Ideal) m c t) ej).trans ?_
  refine (h t (j 0) (j 1)).trans ?_
  refine congrArg G ?_
  funext a
  apply Fin.ext
  match a with
  | ⟨0, _⟩ => show 1024 * t.val + (j 0).val = win0_3.index t (0 : Fin 2) * 1024 + 1 * (j 0).val; rw [e0]; omega
  | ⟨1, _⟩ => show (j 1).val = win0_3.index t (1 : Fin 2) * 64 + 1 * (j 1).val; rw [e1]; omega

/-- An entry of the result array is in point `t`'s block iff, on each axis, its coordinate is in the block's range:
    from the block index times the block's extent, for that extent. -/
theorem mem_out_block (t : Fin cfg0.N) (i : S8192x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v9).slice (win0_3.rect t)).set ↔ _
  rw [View.set_slice_whole, Rect.mem_set_unit]
  exact Iff.rfl

/-- Every entry `(r, d)` of the result array is in the block of point `r / 1024`, which is written back:
    `(r / 1024)·1024 ≤ r < (r / 1024)·1024 + 1024` and `0 ≤ d < 64`. -/
theorem out_blocks_cover (i : S8192x64.Idx) :
    ∃ t : Fin cfg0.N, (cfg0.win 3).flush t = true ∧ i ∈ ((cfg0.win 3).blk t).view.set := by
  have hi0 : (i 0).val < 8192 := (i 0).isLt
  have hi1 : (i 1).val < 64 := (i 1).isLt
  have ht : (i 0).val / 1024 < cfg0.N := by show (i 0).val / 1024 < 8; omega
  obtain ⟨-, -, -, -, -, -, e0, e1⟩ := block_index ⟨(i 0).val / 1024, ht⟩
  refine ⟨⟨(i 0).val / 1024, ht⟩, flush0_3 _, ?_⟩
  rw [mem_out_block]
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_3.index ⟨(i 0).val / 1024, ht⟩ (1 : Fin 2) * 64 ≤ (i 1).val ∧ (i 1).val < win0_3.index ⟨(i 0).val / 1024, ht⟩ (1 : Fin 2) * 64 + 64
    rw [e1]; omega

/-- If at every point `t` the body leaves rows `1024·t …` of one whole-array function `G` in the result's staging
    buffer, the result array after the eight write-backs is `G`: every write puts `G`'s values, and the blocks cover
    the array. -/
theorem arr_of_blocks (G : S8192x64.Idx → EReal)
    (h : ∀ (t : Fin cfg0.N) (p : Fin 1024) (q : Fin 64),
      outsAt0 (F := Ideal) m c t (ix2 p q) = G (ix2 (⟨1024 * t.val + p.val, row_lt t p⟩ : Fin 8192) q)) :
    (dats (F := Ideal) m 0 c).arrAt 3 cfg0.N = G :=
  (dats (F := Ideal) m 0 c).arrAt_eq_of_cover 3 G (fun t _ => written_back_eq m c G h t) out_blocks_cover

/-! ## The inputs: a block read at an entry -/

/-- The query window's block at point `t` is rows `1024·t … 1024·t + 1023` of its array: entry `(p, q)` of the block
    sits at `(t·1024 + p, 0·64 + q)`. -/
theorem iblk0_apply (t : Fin cfg0.N) (p : Fin 1024) (q : Fin 64) :
    iblk (F := Ideal) m c 0 t (ix2 p q)
      = V (F := Ideal) m c main_v6 (ix2 (⟨1024 * t.val + p.val, row_lt t p⟩ : Fin 8192) q) := by
  obtain ⟨e0, e1, -⟩ := block_index t
  unfold iblk
  rw [View.read_apply]
  show V (F := Ideal) m c main_v6 (((cfg0.win 0).blk t).view.emb (ix2 p q)) = _
  refine congrArg (V (F := Ideal) m c main_v6 : S8192x64.Idx → EReal) ?_
  funext a
  apply Fin.ext
  match a with
  | ⟨0, _⟩ => show win0_0.index t (0 : Fin 2) * 1024 + 1 * p.val = 1024 * t.val + p.val; rw [e0]; omega
  | ⟨1, _⟩ => show win0_0.index t (1 : Fin 2) * 64 + 1 * q.val = q.val; rw [e1]; omega

/-- The key window's one block is the whole array, at every point: entry `(r, d)` of the block sits at
    `(0·8192 + r, 0·64 + d)`. -/
theorem iblk1_eq (t : Fin cfg0.N) :
    (iblk (F := Ideal) m c 1 t : S8192x64.Idx → EReal) = V (F := Ideal) m c main_v7 := by
  obtain ⟨-, -, e0, e1, -⟩ := block_index t
  funext j
  unfold iblk
  rw [View.read_apply]
  show V (F := Ideal) m c main_v7 (((cfg0.win 1).blk t).view.emb j) = _
  refine congrArg (V (F := Ideal) m c main_v7 : S8192x64.Idx → EReal) ?_
  funext a
  apply Fin.ext
  match a with
  | ⟨0, _⟩ => show win0_1.index t (0 : Fin 2) * 8192 + 1 * (j 0).val = (j 0).val; rw [e0]; omega
  | ⟨1, _⟩ => show win0_1.index t (1 : Fin 2) * 64 + 1 * (j 1).val = (j 1).val; rw [e1]; omega

/-- The value window's one block is the whole array, at every point, in the same way. -/
theorem iblk2_eq (t : Fin cfg0.N) :
    (iblk (F := Ideal) m c 2 t : S8192x64.Idx → EReal) = V (F := Ideal) m c main_v8 := by
  obtain ⟨-, -, -, -, e0, e1, -⟩ := block_index t
  funext j
  unfold iblk
  rw [View.read_apply]
  show V (F := Ideal) m c main_v8 (((cfg0.win 2).blk t).view.emb j) = _
  refine congrArg (V (F := Ideal) m c main_v8 : S8192x64.Idx → EReal) ?_
  funext a
  apply Fin.ext
  match a with
  | ⟨0, _⟩ => show win0_2.index t (0 : Fin 2) * 8192 + 1 * (j 0).val = (j 0).val; rw [e0]; omega
  | ⟨1, _⟩ => show win0_2.index t (1 : Fin 2) * 64 + 1 * (j 1).val = (j 1).val; rw [e1]; omega

end Attention.Blocks

end
-- ==== Proof.KernelInputs.lean ====
/-
  What the kernel's three staged arrays hold when its region is entered.

  Before the region the program forms, for each of the three weight matrices W, the product X Wᵀ: it
  transposes W, contracts the columns of X against the rows of the transposed matrix, and stores the
  result in a narrower float format.  In exact arithmetic the change of format does nothing, and the
  entry in row r and column d is  ∑ₑ X r e · W d e.  When X and W are matrices of real numbers every
  product and the whole sum are real, so the staged array is the reading of the real matrix
  `Attention.proj X W`.
-/
import proofs.«164678_j74801150427275_2_alg».proof.Proof.Spec
import proofs.«164678_j74801150427275_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Attention.Inputs

open Cert.KernelIdeal Cert.KernelIdeal.Gen Idealize.ShloMosaic Idealize.ShloMosaic.TcCoe Idealize.SL.Sem
open Idealize.ShloMosaic.StableHlo
open Idealize.ShloMosaic.ValueIdx

/-- The coercion of the reals into the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The contraction X · Y of an [8192, 64] array with a [64, 64] array: columns of X against rows of Y. -/
abbrev D : DotDims S8192x64 S64x64 S8192x64 := dot_S8192x64_S64x64_S8192x64_1_0_0_1_n_n

/-- The left operand's row coordinate is the result's row. -/
theorem lhs_row (i : S8192x64.Idx) (q : D.contr.Idx) : (D.lhsIdx i q 0).val = (i 0).val := by
  unfold DotDims.lhsIdx
  rw [dif_neg (show ¬(0 : Fin S8192x64.rank) ∈ D.lhsBatch by decide),
    dif_pos (show (0 : Fin S8192x64.rank) ∈ D.lhsNonContracting by decide)]
  rfl

/-- The right operand's column coordinate is the result's column. -/
theorem rhs_col (i : S8192x64.Idx) (q : D.contr.Idx) : (D.rhsIdx i q 1).val = (i 1).val := by
  unfold DotDims.rhsIdx
  rw [dif_neg (show ¬(1 : Fin S64x64.rank) ∈ D.rhsBatch by decide),
    dif_pos (show (1 : Fin S64x64.rank) ∈ D.rhsNonContracting by decide)]
  rfl

/-- The contraction at row r and column d: the sum over the 64 shared coordinates k of x[r, k] · y[k, d]. -/
theorem dot_apply (x : FVec Ideal S8192x64 .f32) (y : FVec Ideal S64x64 .f32) (r : Fin 8192) (d : Fin 64) :
    Host.dotGeneral (F := Ideal) (φ₁ := .f32) (φ₂ := .f32) D none x y (ix2 r d)
      = ∑ k : Fin 64, x (ix2 r k) * y (ix2 k d) := by
  simp only [Host.dotGeneral]
  rw [Ideal.dotGeneral_apply, ← Equiv.sum_comp (contrEquiv1 D 64 rfl rfl).symm]
  refine Finset.sum_congr rfl fun k _ => ?_
  have hk := contrEquiv1_symm_val D 64 rfl rfl k
  have el : D.lhsIdx (ix2 r d) ((contrEquiv1 D 64 rfl rfl).symm k) = ix2 r k := funext fun a => Fin.ext (by
    match a with
    | ⟨0, _⟩ => exact lhs_row _ _
    | ⟨1, _⟩ => exact (D.lhsIdx_val_of_single rfl _ _).trans hk)
  have er : D.rhsIdx (ix2 r d) ((contrEquiv1 D 64 rfl rfl).symm k) = ix2 k d := funext fun a => Fin.ext (by
    match a with
    | ⟨0, _⟩ => exact (D.rhsIdx_val_of_single rfl _ _).trans hk
    | ⟨1, _⟩ => exact rhs_col _ _)
  rw [el, er]

/-- The transposed matrix at [k, d] is the matrix at [d, k]. -/
theorem transpose_ix (w : FVec Ideal S64x64 .f32) (h : S64x64.Transposes [1, 0] S64x64) (k d : Fin 64) :
    transpose S64x64 [1, 0] w h (ix2 k d) = w (ix2 d k) :=
  transpose_apply [1, 0] w h (ix2 k d) (ix2 d k) (fun b => match b with
    | ⟨0, _⟩ => rfl
    | ⟨1, _⟩ => rfl)

/-- Transpose the weights, contract with the inputs, change the format: what the program does to each weight matrix. -/
def chain (x : FVec Ideal S8192x64 .f32) (w : FVec Ideal S64x64 .f32) : FVec Ideal S8192x64 .bf16 :=
  truncf .bf16 (Host.dotGeneral (F := Ideal) (φ₁ := .f32) (φ₂ := .f32) D none x
    (transpose S64x64 [1, 0] w Facts₀.transposes_S64x64_S64x64_1_0)) Facts₀.bitsLt_bf16_f32

/-- On real matrices the chain is the projection X Wᵀ, entry by entry. -/
theorem chain_lift (X : Fin 8192 → Fin 64 → ℝ) (W : Fin 64 → Fin 64 → ℝ) :
    (chain (Attention.lift X) (Attention.lift W) : S8192x64.Idx → EReal) = Attention.lift (Attention.proj X W) := by
  funext i
  obtain ⟨r, d, rfl⟩ : ∃ (r : Fin 8192) (d : Fin 64), i = ix2 r d := ⟨i 0, i 1, eq_ix2 i⟩
  unfold chain
  rw [truncf_apply, dot_apply, Attention.lift_ix2]
  unfold Attention.proj
  rw [coe_sum]
  refine Finset.sum_congr rfl fun k _ => ?_
  rw [transpose_ix, Attention.lift_ix2, Attention.lift_ix2, EReal.coe_mul]

variable (m : (ℓ : Loc nD τ sig) → Buf (Elt Ideal) ℓ) (c : Dev nD)

/-- The staged query array is the reading of X Aᵀ. -/
theorem V_q (X : Fin 8192 → Fin 64 → ℝ) (A : Fin 64 → Fin 64 → ℝ)
    (hX : m ((c.tc : Thread nD τ).loc main_arg0) = Attention.lift X)
    (hA : m ((c.tc : Thread nD τ).loc main_arg1) = Attention.lift A) :
    (V (F := Ideal) m c main_v6 : S8192x64.Idx → EReal) = Attention.lift (Attention.proj X A) := by
  have e : (V (F := Ideal) m c main_v6 : S8192x64.Idx → EReal)
      = chain (m ((c.tc : Thread nD τ).loc main_arg0)) (m ((c.tc : Thread nD τ).loc main_arg1)) := by
    dsimp only [Gen.V, Gen.hostOps0]
    after_results
    rfl
  rw [e, hX, hA, chain_lift]

/-- The staged key array is the reading of X Bᵀ. -/
theorem V_k (X : Fin 8192 → Fin 64 → ℝ) (B : Fin 64 → Fin 64 → ℝ)
    (hX : m ((c.tc : Thread nD τ).loc main_arg0) = Attention.lift X)
    (hB : m ((c.tc : Thread nD τ).loc main_arg2) = Attention.lift B) :
    (V (F := Ideal) m c main_v7 : S8192x64.Idx → EReal) = Attention.lift (Attention.proj X B) := by
  have e : (V (F := Ideal) m c main_v7 : S8192x64.Idx → EReal)
      = chain (m ((c.tc : Thread nD τ).loc main_arg0)) (m ((c.tc : Thread nD τ).loc main_arg2)) := by
    dsimp only [Gen.V, Gen.hostOps0]
    after_results
    rfl
  rw [e, hX, hB, chain_lift]

/-- The staged value array is the reading of X Cᵀ. -/
theorem V_v (X : Fin 8192 → Fin 64 → ℝ) (C : Fin 64 → Fin 64 → ℝ)
    (hX : m ((c.tc : Thread nD τ).loc main_arg0) = Attention.lift X)
    (hC : m ((c.tc : Thread nD τ).loc main_arg3) = Attention.lift C) :
    (V (F := Ideal) m c main_v8 : S8192x64.Idx → EReal) = Attention.lift (Attention.proj X C) := by
  have e : (V (F := Ideal) m c main_v8 : S8192x64.Idx → EReal)
      = chain (m ((c.tc : Thread nD τ).loc main_arg0)) (m ((c.tc : Thread nD τ).loc main_arg3)) := by
    dsimp only [Gen.V, Gen.hostOps0]
    after_results
    rfl
  rw [e, hX, hC, chain_lift]

end Attention.Inputs

end
-- ==== Proof.Finite.lean ====
/-
  The four argument arrays are matrices of real numbers.

  The precondition is the conjunction, over the four arguments, of "every entry x has |x| < +∞", each
  written as an `and`-reduction of the entrywise comparison down to a single bit.  An extended real
  whose absolute value max x (-x) lies strictly below ⊤ is neither ⊤ nor ⊥, hence the image of a real
  number; collecting those reals entry by entry gives one real matrix per argument whose reading as an
  array of extended reals is the argument itself.
-/
import proofs.«164678_j74801150427275_2_alg».proof.Proof.Spec
import proofs.«164678_j74801150427275_2_alg».proof.Defs
import proofs.«164678_j74801150427275_2_alg».proof.Proof.Gen.Pre_finite_inputs
import Idealize.ShloMosaic.Lib.ReduceAll

noncomputable section

namespace Attention.Finite

open Idealize.ShloMosaic Idealize.SL.Sem

/-- The scalar shape has exactly one index. -/
instance : Subsingleton Cert.Pre_finite_inputs.S_.Idx := ⟨fun a b => funext fun d => d.elim0⟩

/-- An extended real with `|x| < +∞` (the comparison bit against the word of +∞ is set) is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One conjunct of the precondition: if "all entries have |x| < +∞" reduces to the set bit, every entry is a real. -/
theorem entry_real {S : Shape} (x : FVec Ideal S .f32)
    (bc : Cert.Pre_finite_inputs.S_.BroadcastsInDim S (![] : Fin 0 → Fin S.rank))
    {axes : List (Fin S.rank)} (red : S.ReducesTo axes Cert.Pre_finite_inputs.S_)
    (hu : 0 < Cert.Pre_finite_inputs.S_.numel)
    (e : Host.reduce IntOp.andi
          (cmpf .olt (Host.absf x)
            (broadcastInDim S ![] bc (constant (F := Ideal) Cert.Pre_finite_inputs.S_ .f32 0x7F800000#32)))
          (constantI Cert.Pre_finite_inputs.S_ 1 1#1) red hu ValueIdx.ix0 = 1#1)
    (i : S.Idx) : ∃ r : ℝ, x i = (r : EReal) :=
  real_of_abs_lt_inf (x i) (Host.reduce_andi_all _ _ red hu ValueIdx.ix0 e i)

/-- An array of shape [a, b] all of whose entries are reals is the reading of a real matrix. -/
theorem lift_of_entries {a b : ℕ} (x : (⟨2, ![a, b]⟩ : Shape).Idx → EReal)
    (h : ∀ i, ∃ r : ℝ, x i = (r : EReal)) : ∃ A : Fin a → Fin b → ℝ, x = Attention.lift A := by
  choose f hf using h
  refine ⟨fun p q => f (ValueIdx.ix2 p q), funext fun i => ?_⟩
  rw [Attention.lift_apply, hf i]
  exact congrArg (fun j => ((f j : ℝ) : EReal)) (ValueIdx.eq_ix2 i)

/-- Under the precondition the four arguments are the readings of four real matrices. -/
theorem reals_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∃ (X : Fin 8192 → Fin 64 → ℝ) (A B C : Fin 64 → Fin 64 → ℝ),
      m ((c.tc : Thread Cert.KernelIdeal.nD Cert.KernelIdeal.τ).loc Cert.KernelIdeal.main_arg0) = Attention.lift X
      ∧ m ((c.tc : Thread _ _).loc Cert.KernelIdeal.main_arg1) = Attention.lift A
      ∧ m ((c.tc : Thread _ _).loc Cert.KernelIdeal.main_arg2) = Attention.lift B
      ∧ m ((c.tc : Thread _ _).loc Cert.KernelIdeal.main_arg3) = Attention.lift C := by
  have e := congrFun (h c) ValueIdx.ix0
  dsimp only [Cert.Pre_finite_inputs.fn, Cert.Pre_finite_inputs.fn_part1] at e
  obtain ⟨e012, e3⟩ := IntOp.andi_eq_one.1 e
  obtain ⟨e01, e2⟩ := IntOp.andi_eq_one.1 e012
  obtain ⟨e0, e1⟩ := IntOp.andi_eq_one.1 e01
  obtain ⟨X, hX⟩ := lift_of_entries _ (entry_real _ _ _ _ e0)
  obtain ⟨A, hA⟩ := lift_of_entries _ (entry_real _ _ _ _ e1)
  obtain ⟨B, hB⟩ := lift_of_entries _ (entry_real _ _ _ _ e2)
  obtain ⟨C, hC⟩ := lift_of_entries _ (entry_real _ _ _ _ e3)
  exact ⟨X, A, B, C, hX, hA, hB, hC⟩

end Attention.Finite

end
-- ==== Proof.RefAttention.lean ====
/-
  The reference program computes plain softmax attention.

  Each stage of the reference, read at one index, is a real number: the three projections are the
  dot products of an input row with a weight row; a score is the dot product of a query row and a
  key row times 1/8 (the reciprocal of the square root of 64); the row maximum is some real `m`; the
  weights are `exp (s - m) / ∑ exp (s - m)`, and the result is their combination of the value rows.
  Subtracting one constant from every score of a row multiplies numerator and denominator by the
  same positive factor `exp (-m)`, so the result is the `exp`-weighted average of the specification,
  whatever the maximum is.
-/
import proofs.«164678_j74801150427275_2_alg».proof.Proof.Spec
import proofs.«164678_j74801150427275_2_alg».proof.Proof.Gen.ReferenceIdeal.Read

noncomputable section

open scoped BigOperators

namespace Attention.Ref

open Idealize.ShloMosaic Idealize.ShloMosaic.ValueIdx Cert.ReferenceIdeal Cert.ReferenceIdeal.Gen
  Cert.ReferenceIdeal.Read

/-! ## Real arithmetic -/

/-- Softmax weights do not change when one constant is subtracted from every score: the factor
    `exp (-m)` is common to the numerator and to the denominator, and the denominator is positive. -/
theorem softmax_shift {ι : Type} [Fintype ι] [Nonempty ι] (s v : ι → ℝ) (m : ℝ) :
    ∑ j, Real.exp (s j - m) / (∑ j', Real.exp (s j' - m)) * v j
      = (∑ j, Real.exp (s j) * v j) / ∑ j, Real.exp (s j) := by
  have hm : ∀ j, Real.exp (s j - m) = Real.exp (s j) * Real.exp (-m) := fun j => by
    rw [sub_eq_add_neg, Real.exp_add]
  have hZ : 0 < ∑ j, Real.exp (s j) := Finset.sum_pos (fun j _ => Real.exp_pos _) Finset.univ_nonempty
  have hE : 0 < Real.exp (-m) := Real.exp_pos _
  simp only [hm]
  rw [← Finset.sum_mul, Finset.sum_div]
  refine Finset.sum_congr rfl fun j _ => ?_
  field_simp

/-- The denominator of the shifted softmax is positive. -/
theorem sum_exp_pos {ι : Type} [Fintype ι] [Nonempty ι] (s : ι → ℝ) (m : ℝ) :
    0 < ∑ j, Real.exp (s j - m) :=
  Finset.sum_pos (fun j _ => Real.exp_pos _) Finset.univ_nonempty

/-! ## Extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum, taken from `-∞`, of finitely many reals is `-∞` over the empty set and a real otherwise. -/
theorem fold_max_real {ι : Type} (s : Finset ι) (g : ι → EReal) (hg : ∀ k, ∃ x : ℝ, g k = x) :
    (s = ∅ ∧ s.fold (FloatOps.maximumf (F := Ideal) (φ := .f32)) ⊥ g = ⊥)
      ∨ ∃ m : ℝ, s.fold (FloatOps.maximumf (F := Ideal) (φ := .f32)) ⊥ g = (m : EReal) := by
  classical
  induction s using Finset.induction_on with
  | empty => exact Or.inl ⟨rfl, Finset.fold_empty⟩
  | insert a s ha ih =>
    right
    obtain ⟨x, hx⟩ := hg a
    rw [Finset.fold_insert ha, hx, Ideal.maximumf_def]
    rcases ih with ⟨_, h0⟩ | ⟨m, hm⟩
    · exact ⟨x, by rw [h0]; exact max_eq_left bot_le⟩
    · exact ⟨max x m, by rw [hm]; exact (EReal.coe_strictMono.monotone.map_max).symm⟩

/-! ## The constants: 64, 1, -∞, and the scale 1/8 -/

theorem sqrt_sixty_four : Real.sqrt 64 = 8 := by
  rw [show (64 : ℝ) = 8 ^ 2 by norm_num]; exact Real.sqrt_sq (by norm_num)

theorem word_sixty_four : Ideal.ofBits .f32 0x42800000#32 = ((64 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

theorem word_neg_inf : Ideal.ofBits .f32 0xFF800000#32 = ⊥ := by
  simp [Ideal.ofBits, Ideal.ieee]

/-- The scale: one over the square root of 64 is the real 1/8. -/
theorem scale_eq (i : S_.Idx) : val_main_v7 (F := Ideal) i = ((1 / 8 : ℝ) : EReal) := by
  rw [val_main_v7_apply, val_main_cst_0_apply, val_main_v6_apply, val_main_cst_apply,
    Ideal.ofBits_def, Ideal.ofBits_def, word_sixty_four, word_one, Ideal.hostUnary_sqrt_def,
    Ideal.sqrt_coe, if_neg (by norm_num), sqrt_sixty_four, Ideal.hostDivf_def,
    Ideal.div_coe (by norm_num), ← EReal.coe_mul, one_mul]

/-! ## The stages of the reference at an index -/

variable (X : Fin 8192 → Fin 64 → ℝ) (A B C : Fin 64 → Fin 64 → ℝ)

/-- The first projection at `(r, d)`: input row `r` against weight row `d`. -/
theorem query_at (W : Fin 64 → Fin 64 → ℝ) (r : Fin 8192) (d : Fin 64) :
    val_main_v1 (F := Ideal) (lift X) (lift W) (ix2 r d) = ((proj X W r d : ℝ) : EReal) := by
  rw [val_main_v1_apply]
  unfold proj
  rw [coe_sum]
  refine Finset.sum_congr rfl fun k _ => ?_
  rw [val_main_v0_apply, EReal.coe_mul]
  rfl

/-- The second projection at `(r, d)`. -/
theorem key_at (W : Fin 64 → Fin 64 → ℝ) (r : Fin 8192) (d : Fin 64) :
    val_main_v3 (F := Ideal) (lift X) (lift W) (ix2 r d) = ((proj X W r d : ℝ) : EReal) := by
  rw [val_main_v3_apply]
  unfold proj
  rw [coe_sum]
  refine Finset.sum_congr rfl fun k _ => ?_
  rw [val_main_v2_apply, EReal.coe_mul]
  rfl

/-- The third projection at `(r, d)`. -/
theorem value_at (W : Fin 64 → Fin 64 → ℝ) (r : Fin 8192) (d : Fin 64) :
    val_main_v5 (F := Ideal) (lift X) (lift W) (ix2 r d) = ((proj X W r d : ℝ) : EReal) := by
  rw [val_main_v5_apply]
  unfold proj
  rw [coe_sum]
  refine Finset.sum_congr rfl fun k _ => ?_
  rw [val_main_v4_apply, EReal.coe_mul]
  rfl

/-- The scaled score of query row `r` against key row `j`. -/
theorem score_at (r j : Fin 8192) :
    val_main_v11 (F := Ideal) (lift X) (lift A) (lift B) (ix2 r j)
      = ((score (proj X A) (proj X B) r j : ℝ) : EReal) := by
  rw [val_main_v11_apply, val_main_v9_apply, val_main_v10_apply, scale_eq, Ideal.mulf_def]
  unfold score
  rw [EReal.coe_mul, coe_sum]
  congr 1
  refine Finset.sum_congr rfl fun k _ => ?_
  have e1 : lidx_main_v9 (ix2 r j) k = ix2 r k :=
    funext fun a => Fin.ext (by match a with | ⟨0, _⟩ => rfl | ⟨1, _⟩ => rfl)
  have e2 : idx_main_v8 (ridx_main_v9 (ix2 r j) k) = ix2 j k :=
    funext fun a => Fin.ext (by match a with | ⟨0, _⟩ => rfl | ⟨1, _⟩ => rfl)
  rw [val_main_v8_apply, e1, e2, query_at, key_at, EReal.coe_mul]

/-- Every score is a real number. -/
theorem score_real (i : S8192x8192.Idx) :
    ∃ x : ℝ, val_main_v11 (F := Ideal) (lift X) (lift A) (lift B) i = (x : EReal) := by
  obtain ⟨p, q, rfl⟩ : ∃ (p : Fin 8192) (q : Fin 8192), i = ix2 p q := ⟨i 0, i 1, eq_ix2 i⟩
  exact ⟨_, score_at X A B p q⟩

/-- The row maximum is a real number: it is a maximum from `-∞` over the 8192 scores of the row,
    each of them a real, and the row is not empty. Its value plays no part in the result. -/
theorem rowmax_real (r : Fin 8192) :
    ∃ m : ℝ, val_main_v14 (F := Ideal) (lift X) (lift A) (lift B) (ix1 r) = (m : EReal) := by
  have hred : S8192x8192.Reduces [1] S8192 := by decide
  rw [val_main_v14_apply, val_main_v13_apply, val_main_cst_2_apply, Ideal.ofBits_def, word_neg_inf,
    Ideal.maximumf_def, max_eq_right bot_le]
  unfold val_main_v12
  rw [Host.reduce_eq_fold_single _ _ _ _ hred, val_main_cst_1_apply, Ideal.ofBits_def, word_neg_inf]
  rcases fold_max_real Finset.univ
      (val_main_v11 (F := Ideal) (lift X) (lift A) (lift B) ∘ hred.lift (ix1 r))
      (fun k => score_real X A B _) with ⟨h0, _⟩ | h
  · exact absurd h0 (Finset.ne_empty_of_mem
      (Finset.mem_univ (⟨0, by decide⟩ : Fin (S8192x8192.size 1))))
  · exact h

section Softmax

variable (m : Fin 8192 → ℝ)
  (hm : ∀ r, val_main_v14 (F := Ideal) (lift X) (lift A) (lift B) (ix1 r) = ((m r : ℝ) : EReal))
include hm

/-- The exponential of a score less its row's maximum `m r`. -/
theorem exp_at (r j : Fin 8192) :
    val_main_v18 (F := Ideal) (lift X) (lift A) (lift B) (ix2 r j)
      = ((Real.exp (score (proj X A) (proj X B) r j - m r) : ℝ) : EReal) := by
  have e : idx_main_v15 (idx_main_v16 (ix2 r j)) = ix1 r :=
    funext fun a => Fin.ext (by match a with | ⟨0, _⟩ => rfl)
  rw [val_main_v18_apply, val_main_v17_apply, val_main_v16_apply, val_main_v15_apply, e, hm,
    score_at, Ideal.hostUnary_exp_def, Ideal.subf_def, ← EReal.coe_sub, Ideal.exp_coe]

/-- The row's denominator: the sum of the row's exponentials. -/
theorem denom_at (r : Fin 8192) :
    val_main_v19 (F := Ideal) (lift X) (lift A) (lift B) (ix1 r)
      = ((∑ k : Fin 8192, Real.exp (score (proj X A) (proj X B) r k - m r) : ℝ) : EReal) := by
  rw [val_main_v19_apply, val_main_cst_3_apply, Ideal.ofBits_def, Ideal.ofBits_zero_f32, zero_add,
    coe_sum]
  refine Finset.sum_congr rfl fun k _ => ?_
  have e : idx_main_v19 (ix1 r) k = ix2 r k :=
    funext fun a => Fin.ext (by match a with | ⟨0, _⟩ => rfl | ⟨1, _⟩ => rfl)
  rw [e, exp_at X A B m hm]

/-- The softmax weight of key row `j` for query row `r`. -/
theorem weight_at (r j : Fin 8192) :
    val_main_v22 (F := Ideal) (lift X) (lift A) (lift B) (ix2 r j)
      = ((Real.exp (score (proj X A) (proj X B) r j - m r)
          / ∑ k : Fin 8192, Real.exp (score (proj X A) (proj X B) r k - m r) : ℝ) : EReal) := by
  have e : idx_main_v20 (idx_main_v21 (ix2 r j)) = ix1 r :=
    funext fun a => Fin.ext (by match a with | ⟨0, _⟩ => rfl)
  have hZ : (∑ k : Fin 8192, Real.exp (score (proj X A) (proj X B) r k - m r)) ≠ 0 :=
    (sum_exp_pos _ _).ne'
  rw [val_main_v22_apply, val_main_v21_apply, val_main_v20_apply, e, denom_at X A B m hm,
    exp_at X A B m hm, Ideal.hostDivf_def, Ideal.div_coe hZ, ← EReal.coe_mul, ← div_eq_mul_one_div]

/-- The result at `(r, c)`: the weights of row `r` against column `c` of the values. -/
theorem result_at (r : Fin 8192) (c : Fin 64) :
    val_main_v23 (F := Ideal) (lift X) (lift A) (lift B) (lift C) (ix2 r c)
      = ((attn (proj X A) (proj X B) (proj X C) r c : ℝ) : EReal) := by
  rw [val_main_v23_apply]
  unfold attn
  rw [← softmax_shift (fun j => score (proj X A) (proj X B) r j) (fun j => proj X C j c) (m r),
    coe_sum]
  refine Finset.sum_congr rfl fun k _ => ?_
  have e1 : lidx_main_v23 (ix2 r c) k = ix2 r k :=
    funext fun a => Fin.ext (by match a with | ⟨0, _⟩ => rfl | ⟨1, _⟩ => rfl)
  have e2 : ridx_main_v23 (ix2 r c) k = ix2 k c :=
    funext fun a => Fin.ext (by match a with | ⟨0, _⟩ => rfl | ⟨1, _⟩ => rfl)
  rw [e1, e2, weight_at X A B m hm, value_at, EReal.coe_mul]

end Softmax

/-- The reference program's result is the specification's attention, entry by entry. -/
theorem result_eq (X : Fin 8192 → Fin 64 → ℝ) (A B C : Fin 64 → Fin 64 → ℝ) :
    Cert.ReferenceIdeal.Read.val_main_v23 (F := Ideal) (Attention.lift X) (Attention.lift A)
        (Attention.lift B) (Attention.lift C)
      = Attention.out X A B C := by
  choose m hm using rowmax_real X A B
  funext i
  obtain ⟨r, c, rfl⟩ : ∃ (r : Fin 8192) (c : Fin 64), i = ix2 r c := ⟨i 0, i 1, eq_ix2 i⟩
  exact result_at X A B C m hm r c

end Attention.Ref

end
-- ==== Proof.KernelValue.lean ====
/-
  From one tile to the whole result, and the two programs side by side.

  The kernel's grid has eight points; at point `t` the body sees rows `1024·t … 1024·t + 1023` of the query
  projection and all rows of the key and value projections, and leaves a block of 1024 result rows. Attention treats
  the query rows independently: row `p` of the attention of the tile's query rows is row `1024·t + p` of the attention
  of all query rows. So, granted that the body computes the attention of the three real matrices it is handed, the
  eight blocks are the eight row ranges of the specification's result, and the result array is the specification's.
  The reference program computes the same array from the same arguments, which the precondition makes real matrices.
-/
import proofs.«164678_j74801150427275_2_alg».proof.Proof.KernelBlocks
import proofs.«164678_j74801150427275_2_alg».proof.Proof.KernelInputs
import proofs.«164678_j74801150427275_2_alg».proof.Proof.Finite
import proofs.«164678_j74801150427275_2_alg».proof.Proof.RefAttention

noncomputable section

namespace Attention.Kernel

open Cert.KernelIdeal Cert.KernelIdeal.Gen Idealize.ShloMosaic Idealize.ShloMosaic.TcCoe
  Idealize.ShloMosaic.ValueIdx Idealize.SL.Sem

/-- what the body computes at one grid point, from its three input blocks read as real matrices: the attention rows of that tile -/
def BodySpec : Prop :=
  ∀ (c : Dev nD) (i : grid0.Coords) (arg1 : Memref sig .tc .vmem S1024x64 .bf16) (harg1 : arg1.IsWhole) (arg2 : Memref sig .tc .vmem S8192x64 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x64 .f32) (harg7 : arg7.IsWhole)
    (Qt : Fin 1024 → Fin 64 → ℝ) (K V : Fin 8192 → Fin 64 → ℝ),
    out0_A_3 (F := Ideal) c i arg1 harg1 arg2 harg2 arg3 harg3 arg4 harg4 arg5 harg5 arg6 harg6 arg7 harg7 (Attention.lift Qt) (Attention.lift K) (Attention.lift V)
      = Attention.lift (Attention.attn Qt K V)

/-- Attention is computed query row by query row: the attention of a selection of the query rows, at row `p` of the
    selection, is the attention of all the query rows at the selected row. -/
theorem attn_rows {n n' k : ℕ} (Q : Fin n → Fin 64 → ℝ) (K V : Fin k → Fin 64 → ℝ) (f : Fin n' → Fin n)
    (p : Fin n') (c : Fin 64) :
    Attention.attn (fun p d => Q (f p) d) K V p c = Attention.attn Q K V (f p) c := rfl

/-- the whole result array of the kernel is the specification's -/
theorem arr_eq (hbody : BodySpec) (m : (ℓ : Loc nD τ sig) → Buf (Elt Ideal) ℓ) (c : Dev nD)
    (X : Fin 8192 → Fin 64 → ℝ) (A B C : Fin 64 → Fin 64 → ℝ)
    (hX : m ((c.tc : Thread nD τ).loc main_arg0) = Attention.lift X) (hA : m ((c.tc : Thread nD τ).loc main_arg1) = Attention.lift A)
    (hB : m ((c.tc : Thread nD τ).loc main_arg2) = Attention.lift B) (hC : m ((c.tc : Thread nD τ).loc main_arg3) = Attention.lift C) :
    (dats (F := Ideal) m 0 c).arrAt 3 cfg0.N = Attention.out X A B C := by
  refine Attention.Blocks.arr_of_blocks m c (Attention.out X A B C) fun t p q => ?_
  have h0 : (iblk (F := Ideal) m c 0 t : S1024x64.Idx → EReal)
      = Attention.lift (fun (p : Fin 1024) (d : Fin 64) =>
          Attention.proj X A (⟨1024 * t.val + p.val, Attention.Blocks.row_lt t p⟩ : Fin 8192) d) := by
    funext j
    obtain ⟨p, q, rfl⟩ : ∃ (p : Fin 1024) (q : Fin 64), j = ix2 p q := ⟨j 0, j 1, eq_ix2 j⟩
    rw [Attention.Blocks.iblk0_apply, Attention.Inputs.V_q m c X A hX hA, Attention.lift_ix2,
      Attention.lift_ix2]
  have h1 : (iblk (F := Ideal) m c 1 t : S8192x64.Idx → EReal) = Attention.lift (Attention.proj X B) :=
    (Attention.Blocks.iblk1_eq m c t).trans (Attention.Inputs.V_k m c X B hX hB)
  have h2 : (iblk (F := Ideal) m c 2 t : S8192x64.Idx → EReal) = Attention.lift (Attention.proj X C) :=
    (Attention.Blocks.iblk2_eq m c t).trans (Attention.Inputs.V_v m c X C hX hC)
  unfold outsAt0
  rw [h0, h1, h2, hbody, Attention.lift_ix2]
  unfold Attention.out
  rw [Attention.lift_ix2, attn_rows]

/-- the certificate's algebraic conjunct (proof/Defs.lean), with the generated facts as the instances -/
theorem algebraic (hbody : BodySpec) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => (dats (F := Ideal) m 0 c).arrAt 3 cfg0.N, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨X, A, B, C, hX, hA, hB, hC⟩ := Attention.Finite.reals_of_pre m hpre c
  rw [Cert.ReferenceIdeal.Read.val_main_v23_eq, (hagree c).1, (hagree c).2.1, (hagree c).2.2.1,
    (hagree c).2.2.2, hX, hA, hB, hC, Attention.Ref.result_eq]
  exact (arr_eq hbody m c X A B C hX hA hB hC).symm

end Attention.Kernel

end
-- ==== Proof.lean ====
/-
  Single-head attention, computed block by block with a running softmax, against its textbook definition.

  THE TWO PROGRAMS. Both first project the 8192 input rows by three 64×64 weight matrices (`x Wᵀ`) into query,
  key and value rows. The reference then forms all 8192 × 8192 scores `(q · k) / √64`, subtracts each row's
  maximum, exponentiates, divides by the row's sum and multiplies by the value rows. The kernel never forms the
  score matrix: for each tile of 1024 query rows it scales the queries by 1/8 once, walks over the key/value
  rows in sixteen chunks of 512, and keeps per query row a running maximum `M`, a running denominator
  `∑ exp (s − M)` and a running numerator `∑ exp (s − M) · v`; a chunk raises `M` to the new maximum `M'`,
  rescales both sums by `exp (M − M')` and adds its own terms; at the end it divides numerator by denominator.

  WHY THEY AGREE over the extended reals, for finite inputs. With finite inputs every projection and score is a
  real. `√64 = 8`, so the reference's scale `1 / √64` is the kernel's literal `1/8`, and the scale moves out
  of the dot product. The weighted average `(∑ exp (s − M) · v) / ∑ exp (s − M)` does not depend on the shift
  `M` (numerator and denominator both carry the factor `exp (−M)`), so it does not matter that the reference
  shifts by the row's true maximum while the kernel's final shift is whatever its running maximum ended at: both
  equal `(∑ exp s · v) / ∑ exp s`. The rescaling step is `exp (M − M') · exp (s − M) = exp (s − M')`; before
  the first chunk the running maximum is `−∞`, the factor is `exp (−∞) = 0` and the sums are empty. Every
  denominator is a sum of positive reals, so each division is the reals' own. Finiteness of the inputs is used
  throughout: the distributive steps fail at infinities.

  THE MODULES. Spec: the specification over real matrices. RefAttention: the reference computes it. KernelInputs:
  the kernel's three staged arrays are the projections. KernelBlocks: which rows each block holds, and from the
  eight written blocks to the whole array. BodyFold: the kernel body's scratch buffers after `k` chunks are the
  `k`-th iterate of one pure step. BodyPayloads: that step's arithmetic read at one entry. OnlineSoftmax: the
  real algebra of the running softmax. BodyIdeal: the invariant of the three running quantities and the body's
  value. KernelValue: the kernel's result array is the specification's, and the two runs side by side.
  Finite: finite inputs are real matrices.
-/
import proofs.«164678_j74801150427275_2_alg».proof.Defs
import proofs.«164678_j74801150427275_2_alg».proof.Proof.Gen.Kernel
import proofs.«164678_j74801150427275_2_alg».proof.Proof.Gen.Kernel.Skeleton
import proofs.«164678_j74801150427275_2_alg».proof.Proof.Gen.Kernel.Loops
import proofs.«164678_j74801150427275_2_alg».proof.Proof.Gen.Kernel.Launch
import proofs.«164678_j74801150427275_2_alg».proof.Proof.Gen.Kernel.Points
import proofs.«164678_j74801150427275_2_alg».proof.Proof.Gen.Kernel.Frame
import proofs.«164678_j74801150427275_2_alg».proof.Proof.Gen.KernelIdeal
import proofs.«164678_j74801150427275_2_alg».proof.Proof.Gen.KernelIdeal.Skeleton
import proofs.«164678_j74801150427275_2_alg».proof.Proof.Gen.KernelIdeal.Loops
import proofs.«164678_j74801150427275_2_alg».proof.Proof.Gen.KernelIdeal.Launch
import proofs.«164678_j74801150427275_2_alg».proof.Proof.Gen.KernelIdeal.Points
import proofs.«164678_j74801150427275_2_alg».proof.Proof.Gen.KernelIdeal.Frame
import proofs.«164678_j74801150427275_2_alg».proof.Proof.Gen.ReferenceIdeal
import proofs.«164678_j74801150427275_2_alg».proof.Proof.Gen.Pre_finite_inputs
import proofs.«164678_j74801150427275_2_alg».proof.Proof.Gen.KernelIdeal.Value
import proofs.«164678_j74801150427275_2_alg».proof.Proof.Gen.ReferenceIdeal.Run
import proofs.«164678_j74801150427275_2_alg».proof.Proof.Gen.ReferenceIdeal.Read
import proofs.«164678_j74801150427275_2_alg».proof.Proof.BodyIdeal
import proofs.«164678_j74801150427275_2_alg».proof.Proof.KernelValue
import Idealize.ShloMosaic.Adequacy
import Idealize.ShloMosaic.Init

noncomputable section

namespace Cert.Proof

open Idealize.ShloMosaic Idealize.SL.Sem

/-- The kernel body's value at one grid point, in the form the whole-array argument asks for. -/
theorem body_spec : Attention.Kernel.BodySpec :=
  fun c i arg1 harg1 arg2 harg2 arg3 harg3 arg4 harg4 arg5 harg5 arg6 harg6 arg7 harg7 Qt K V =>
    Attention.Body.body_value Qt K V c i arg1 harg1 arg2 harg2 arg3 harg3 arg4 harg4 arg5 harg5 arg6 harg6 arg7 harg7

/-- Both programs run and leave their arguments unchanged (the two kernel programs by their generated frames, the
    reference by its generated run); the idealized kernel is the kernel's own text (no rewrite was applied); and
    the idealized kernel and reference end with equal results. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    Attention.Kernel.algebraic body_spec⟩

end Cert.Proof

end
